-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩
abbrev S4096x128 : Shape := ⟨2, ![4096, 128]⟩
abbrev S4096 : Shape := ⟨1, ![4096]⟩

abbrev nBuf : Space → Nat
  | .hbm => 37
  | .vmem => 7
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x128, .f32⟩
  | .hbm, ⟨10, _⟩ => ⟨S8192x128, .f32⟩
  | .hbm, ⟨11, _⟩ => ⟨S8192x1, .f32⟩
  | .hbm, ⟨12, _⟩ => ⟨S8192, .f32⟩
  | .hbm, ⟨13, _⟩ => ⟨S8192x128, .f32⟩
  | .hbm, ⟨14, _⟩ => ⟨S_, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S8192, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S_, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  transposes_S1024x128_p1_0_S128x1024 : S1024x128.Transposes [1, 0] S128x1024
  reduces_S1024x1024_S1024 : S1024x1024.Reduces [1] S1024
  shapeCasts_S1024_S1024x1 : S1024.ShapeCasts S1024x1
  shapeCasts_S8192x1_S8192 : S8192x1.ShapeCasts S8192
  bcast_S_S8192 : S_.BroadcastsInDim S8192 (![] : Fin 0 → Fin S8192.rank)
  slices_S8192x128_S4096x128_0_0 : S8192x128.Slices ![0, 0] S4096x128
  slices_S8192x128_S4096x128_4096_0 : S8192x128.Slices ![4096, 0] S4096x128
  reducesTo_S4096x128_S4096_d1 : S4096x128.ReducesTo [1] S4096
  bcast_S_S4096 : S_.BroadcastsInDim S4096 (![] : Fin 0 → Fin S4096.rank)
  concatenates_S4096_S4096_S8192_d0 : Shape.Concatenates [S4096, S4096] S8192 0
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v4) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S8192x2 : Shape := ⟨2, ![8192, 2]⟩

abbrev nBuf : Space → Nat
  | .hbm => 87
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x128, .f32⟩
  | .hbm, ⟨10, _⟩ => ⟨S8192x128, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192, .i32⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S_, .i1⟩
  | .hbm, ⟨36, _⟩ => ⟨S8192, .i1⟩
  | .hbm, ⟨37, _⟩ => ⟨S8192, .i1⟩
  | .hbm, ⟨38, _⟩ => ⟨S8192, .i1⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S8192, .i32⟩
  | .hbm, ⟨51, _⟩ => ⟨S8192, .i1⟩
  | .hbm, ⟨52, _⟩ => ⟨S_, .i32⟩
  | .hbm, ⟨53, _⟩ => ⟨S8192, .i32⟩
  | .hbm, ⟨54, _⟩ => ⟨S8192, .i32⟩
  | .hbm, ⟨55, _⟩ => ⟨S8192, .i32⟩
  | .hbm, ⟨56, _⟩ => ⟨S8192x1, .i32⟩
  | .hbm, ⟨57, _⟩ => ⟨S8192x1, .i32⟩
  | .hbm, ⟨58, _⟩ => ⟨S8192x2, .i32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S_, .i32⟩
  | .hbm, ⟨70, _⟩ => ⟨S8192, .i32⟩
  | .hbm, ⟨71, _⟩ => ⟨S8192, .i1⟩
  | .hbm, ⟨72, _⟩ => ⟨S_, .i32⟩
  | .hbm, ⟨73, _⟩ => ⟨S8192, .i32⟩
  | .hbm, ⟨74, _⟩ => ⟨S8192, .i32⟩
  | .hbm, ⟨75, _⟩ => ⟨S8192, .i32⟩
  | .hbm, ⟨76, _⟩ => ⟨S8192x1, .i32⟩
  | .hbm, ⟨77, _⟩ => ⟨S8192x1, .i32⟩
  | .hbm, ⟨78, _⟩ => ⟨S8192x2, .i32⟩
  | .hbm, ⟨79, _⟩ => ⟨S8192, .f32⟩
  | .hbm, ⟨80, _⟩ => ⟨S8192, .f32⟩
  | .hbm, ⟨81, _⟩ => ⟨S8192, .f32⟩
  | .hbm, ⟨82, _⟩ => ⟨S8192, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_c_3 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_4 : Ref sig .tc := ⟨.hbm, 49, rfl⟩
abbrev main_v18 : Ref sig .tc := ⟨.hbm, 50, rfl⟩
abbrev main_v19 : Ref sig .tc := ⟨.hbm, 51, rfl⟩
abbrev main_c_5 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_6 : Ref sig .tc := ⟨.hbm, 60, rfl⟩
abbrev main_v27 : Ref sig .tc := ⟨.hbm, 61, rfl⟩
abbrev main_c_7 : Ref sig .tc := ⟨.hbm, 62, rfl⟩
abbrev main_v28 : Ref sig .tc := ⟨.hbm, 63, rfl⟩
abbrev main_v29 : Ref sig .tc := ⟨.hbm, 64, rfl⟩
abbrev main_c_8 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_9 : Ref sig .tc := ⟨.hbm, 69, rfl⟩
abbrev main_v33 : Ref sig .tc := ⟨.hbm, 70, rfl⟩
abbrev main_v34 : Ref sig .tc := ⟨.hbm, 71, rfl⟩
abbrev main_c_10 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_11 : Ref sig .tc := ⟨.hbm, 85, rfl⟩
abbrev main_v47 : Ref sig .tc := ⟨.hbm, 86, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S_S8192x8192 : S_.BroadcastsInDim S8192x8192 (![] : Fin 0 → Fin S8192x8192.rank)
  bcast_S_S8192 : S_.BroadcastsInDim S8192 (![] : Fin 0 → Fin S8192.rank)
  concatenates_S8192x1_S8192x1_S8192x2_d1 : Shape.Concatenates [S8192x1, S8192x1] S8192x2 1
  reducesTo_S8192x8192_S8192_d1 : S8192x8192.ReducesTo [1] S8192
  reducesTo_S8192_S_d0 : S8192.ReducesTo [0] S_
  dot_S8192x128_S8192x128_S8192x8192_1_1_0_0_n_n_wf : DotDims.WF S8192x128 S8192x128 S8192x8192 [1] [1] [0] [0] [] []
  gather_S8192x8192_S8192x2_S8192_n_01_n_n_01_1_11_wf : GatherDims.WF S8192x8192 S8192x2 S8192 [] [0, 1] [] [0, 1] [] 1 ![1, 1]

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.LibFrameSharedTail.lean ====
/-
  The frame run of a one-region pipeline kernel that is handed ONE array through SEVERAL input windows, carries an
  invariant of its own from grid point to grid point (a scratch accumulator), and is followed in @main by lines of
  host operations.

  When two input windows stage blocks of one array, the array's buffer is dealt among the windows at the region's
  entry (hsplit) and collected again at its exit (hjoin): between the two the pipeline holds one share per window.
  The lines after the region run holding every unscoped buffer whole: the arrays as the region leaves them (the exit
  valuation E, which agrees with the entry contents off the arrays), everything else as the region found it. They
  write no array, so what they leave is dealt to the windows once more (hsplitN) for the pipeline's own bookkeeping,
  and the final state has every window's array at what the write-backs left there and every other unscoped buffer at
  what the lines computed from the exit valuation.
-/
import Idealize.ShloMosaic.Lib.Pipeline.FrameSuffix

noncomputable section

namespace Idealize.ShloMosaic.Pipeline

open Idealize.SL
open Idealize.SL.BI (sProp bigSep bigSep_map bigSep_congr)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- What the frame run around a region with shared arrays concludes: every window's array at what the write-backs
    leave, every other unscoped buffer at what the lines after the region compute from the exit valuation. -/
def SharedPost (cfgs : P → Cfg sig Λ₀) (dats : (p : P) → (c : Dev nD) → Dat τ Val Unit ℕ (UR sig nD τ) ℕ (cfgs p) c) (p : P)
    (E : Dev nD → Valuation τ sig Val) (opss : List (List (HloOp τ sig Val))) (r : PUnit × MemSt nD τ sig Val) : Prop :=
  ∀ c : Dev nD, (∀ w, r.2.mem (((cfgs p).spec w).arr.view.loc (c.tc : Thread nD τ)) = (dats p c).arrAt w (cfgs p).N)
    ∧ ∀ b ∈ restRefs sig (cfgs p).spec, r.2.mem ((c.tc : Thread nD τ).loc b) = StableHlo.after opss.flatten (E c) (Proc.devRef .tc b)

set_option backward.isDefEq.respectTransparency.types false in
theorem θ_run_frame_shared_around (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ : Dev nD → Valuation τ sig Val) (opss : List (List (HloOp τ sig Val)))
    (hsub : ∀ ops ∈ opss, ∀ op ∈ ops, op.bufs ⊆ StableHlo.tcRefs τ sig)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hsplit : ∀ c, (arrBufs (cfgs p).spec c (fun b => V₀ c (Proc.devRef .tc b)) : sProp 𝕄) ⊢ (dats p c).arrays ((dats p c).arrAt · 0))
    (E : Dev nD → Valuation τ sig Val)
    (hE : ∀ c, ∀ b ∈ restRefs sig (cfgs p).spec, E c (Proc.devRef .tc b) = V₀ c (Proc.devRef .tc b))
    (hjoin : ∀ c, ((dats p c).arrays ((dats p c).arrAt · (cfgs p).N) : sProp 𝕄) ⊢ arrBufs (cfgs p).spec c (fun b => E c (Proc.devRef .tc b)))
    (hsplitN : ∀ c, (arrBufs (cfgs p).spec c (fun b => E c (Proc.devRef .tc b)) : sProp 𝕄) ⊢ (dats p c).arrays ((dats p c).arrAt · (cfgs p).N))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (SharedPost cfgs dats p E opss) := by
  classical
  exact θ_run_region_noSem_pf_tail (fun q => (cfgs q).toPCfg) (fun q => (cfgs q).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (E c) (Proc.devRef .tc b)))
    (hX := fun c => by
      rw [unscopedRestP_none]
      iintro H
      isplitr
      · iempintro
      · iexact H)
    (hin := fun c => (show _ ⊢ (scopedRest (cfgs p).spec c : sProp 𝕄) from by iintro ⟨-, -, HR⟩; iexact HR).trans (hin c))
    (hout := fun c => (hout c).trans (by
      iintro H
      isplitr
      · iempintro
      · iexact H))
    (htail := fun c Q' => by
      have hEZ : (unscopedRest (Ix := Unit) (Name := ℕ) (U := UR sig nD τ) (Lvl := ℕ) (cfgs p).spec c (fun b => V₀ c (Proc.devRef .tc b)) : sProp 𝕄)
          = unscopedRest (cfgs p).spec c (fun b => E c (Proc.devRef .tc b)) := by
        unfold unscopedRest
        exact bigSep_congr fun b hb => by dsimp only; rw [hE c b hb]
      have hkeepA : (arrBufs (cfgs p).spec c (fun b => StableHlo.after opss.flatten (E c) (Proc.devRef .tc b)) : sProp 𝕄)
          = arrBufs (cfgs p).spec c (fun b => E c (Proc.devRef .tc b)) := by
        unfold arrBufs
        exact bigSep_congr fun b hb => by
          obtain ⟨w, -, rfl⟩ := Finset.mem_image.mp hb
          dsimp only
          rw [StableHlo.after_of_forall_not_mem _ _ fun op hop => ?_]
          obtain ⟨ops, hops, hop'⟩ := List.mem_flatten.mp hop
          exact hkeep ops hops op hop' w
      have hheld : ∀ Wv : Valuation τ sig Val,
          (StableHlo.held (c.tc : Thread nD τ) (ucRefs τ sig) Wv : sProp 𝕄)
            = iprop(arrBufs (cfgs p).spec c (fun b => Wv (Proc.devRef .tc b)) ∗ unscopedRest (cfgs p).spec c (fun b => Wv (Proc.devRef .tc b))) := fun Wv => by
        rw [← unscopedBufs_held (Ix := Unit) (Name := ℕ) (U := UR sig nD τ) (Lvl := ℕ) c Wv]
        exact unscopedBufs_split₀ cfgs p hw.arr_unscoped c _
      have h1 : iprop(boundary (c.tc : Thread nD τ) ∗ (dats p c).arrays ((dats p c).arrAt · (cfgs p).N)
            ∗ (unscopedRest (cfgs p).spec c (fun b => V₀ c (Proc.devRef .tc b)) : sProp 𝕄))
          ⊢ iprop(boundary (c.tc : Thread nD τ) ∗ (StableHlo.held (c.tc : Thread nD τ) (ucRefs τ sig) (E c) : sProp 𝕄)) := by
        rw [hheld (E c), hEZ]
        iintro ⟨Hb, HA, HZ⟩
        isplitl [Hb]
        · iexact Hb
        isplitl [HA]
        · iapply (hjoin c) $$ HA
        · iexact HZ
      have h2 : iprop(boundary (c.tc : Thread nD τ) ∗ (StableHlo.held (c.tc : Thread nD τ) (ucRefs τ sig) (StableHlo.after opss.flatten (E c)) : sProp 𝕄))
          ⊢ iprop((dats p c).arrays ((dats p c).arrAt · (cfgs p).N)
            ∗ (unscopedRest (cfgs p).spec c (fun b => StableHlo.after opss.flatten (E c) (Proc.devRef .tc b)) : sProp 𝕄)) := by
        rw [hheld, hkeepA]
        iintro ⟨-, HA, HZ⟩
        isplitl [HA]
        · iapply (hsplitN c) $$ HA
        · iexact HZ
      have h3 := wp_seqs_then (Ix := Unit) (Name := ℕ) (U := UR sig nD τ) (Lvl := ℕ) (fun q => Cfg.toPCfg (Val := Val) (cfgs q)) defs₀ 𝒱₀ c (ucRefs τ sig) [] (K := Q') opss
        (fun ops ho op h => sub_ucRefs op (hsub ops ho op h)) hfresh (E c)
      rw [chain_nil, wp_pure, List.append_nil] at h3
      iintro ⟨Hk, Hrest⟩
      ihave H := h1 $$ Hrest
      iapply h3 $$ H
      iintro H
      ihave H := h2 $$ H
      imodintro
      iapply Hk
      iexact H)
    (QY := fun c s => ∀ b ∈ restRefs sig (cfgs p).spec, s.mem ((c.tc : Thread nD τ).loc b) = StableHlo.after opss.flatten (E c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (E c) (Proc.devRef .tc b)) s')
      isplitl [HU] <;> iassumption)
    (hQ := fun s h c => ⟨(h c).1, (h c).2.2⟩)

end Idealize.ShloMosaic.Pipeline

end
-- ==== Proof.KernelRuns.lean ====
/-
  The row-sum kernel's region, shared by the runs of its three control cases: @main around the region, the blocks the
  two input windows stage of the ONE normalized array, the closed forms of the body's two conditions over the grid
  (the column tile is the first, the column tile is the last), where the output window is idle, and the memrefs the
  body is called with.
-/
import proofs.«110751_j72619307041593_1_alg».proof.Proof.Gen.Kernel.Launch
import proofs.«110751_j72619307041593_1_alg».proof.Proof.Gen.Kernel.Skeleton
import proofs.«110751_j72619307041593_1_alg».proof.Proof.Gen.Kernel.Points
import proofs.«110751_j72619307041593_1_alg».proof.Proof.LibFrameSharedTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What the device's buffers hold when the region is entered: the launch contents after the norm, the clamp and the
    division that make the normalized array. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines that normalize, the region, and the host lines that finish the loss. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The lines after the region write neither the normalized array nor the row sums. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The column tile is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The column tile is the last one. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1024x1 .f32 := (Memref.whole cc0_stg2_0 : Memref sig .tc .vmem S1024x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1 .f32 := Memref.whole cc0_scratch0
abbrev VS0_0 : View sig .tc .vmem S1024x1 .f32 := scM0_0.view

/-- The scoped rest is the accumulator owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.KernelCases.lean ====
/-
  The row-sum kernel's body run once per control case. Case A: the column tile is the first, so the accumulator is
  zeroed, then the tile's row sums are added; the output window is left alone. Case B: a middle column tile: the row
  sums are added to what the point before left. Case C: the last column tile: the sums are added and the accumulator
  is copied to the output window. Each run finds, by unification, the pieces its stores leave in each buffer.
-/
import proofs.«110751_j72619307041593_1_alg».proof.Proof.KernelRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First column tile: the output window (arg4) is handed back untouched; the accumulator (arg5), found at anything,
    ends with the pieces LS0. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x128 .f32) (x1 : Vec F S1024x128 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨[], ?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle column tile: the output window is handed back untouched; the accumulator, found at what the point before
    left (xs0), ends with the pieces LS0. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x128 .f32) (x1 : Vec F S1024x128 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨[], ?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last column tile: the output window, found at anything, ends with the pieces L2; the accumulator, found at
    what the point before left (xs0), with the pieces LS0. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x128 .f32) (x1 : Vec F S1024x128 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.Kernel.Hand

end
-- ==== Proof.KernelFrame.lean ====
/-
  The frame run of the row-sum program: what the accumulator and the output window hold after every grid point, the
  pipeline's proof data, the body obligation case by case, how the ONE normalized array is dealt between the two input
  windows (one half of the full share each) and collected again, and the run of @main: every weakly fair execution
  terminates with the row sums at what the write-backs left and every other buffer at what the host lines compute.
-/
import proofs.«110751_j72619307041593_1_alg».proof.Proof.KernelCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x128 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What the first-column-tile case leaves in the accumulator. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x128 .f32) : Vec F S1024x1 .f32 :=
  VS0_0.read (Elt F) (VS0_0.writes (Elt F) VS0_0.junk (kernelRun0_A c i arg2 harg2 arg3 harg3 arg4 harg4 arg5 harg5 hc0 hc1 x0 x1).2.1)

theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x128 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What a middle-column-tile case leaves in the accumulator. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x128 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What the last-column-tile case leaves in the output window. -/
def out0_C_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What the last-column-tile case leaves in the accumulator. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## The three cases at a grid point -/

/-- The accumulator after a point whose column tile is the first. -/
def accA (c : Dev nD) (t : Fin cfg0.N) (h0 : t.val % 8 = 0) (h1 : ¬t.val % 8 = 7) : Vec F S1024x1 .f32 :=
  sout0_A_0 c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)
/-- The accumulator after a point whose column tile is a middle one, from what the point before left. -/
def accB (c : Dev nD) (t : Fin cfg0.N) (h0 : ¬t.val % 8 = 0) (h1 : ¬t.val % 8 = 7) (xs : Vec F S1024x1 .f32) : Vec F S1024x1 .f32 :=
  sout0_B_0 c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t) xs
/-- The accumulator after a point whose column tile is the last, from what the point before left. -/
def accC (c : Dev nD) (t : Fin cfg0.N) (h0 : ¬t.val % 8 = 0) (h1 : t.val % 8 = 7) (xs : Vec F S1024x1 .f32) : Vec F S1024x1 .f32 :=
  sout0_C_0 c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t) xs
/-- The output window after a point whose column tile is the last. -/
def outC (c : Dev nD) (t : Fin cfg0.N) (h0 : ¬t.val % 8 = 0) (h1 : t.val % 8 = 7) (xs : Vec F S1024x1 .f32) : Vec F S1024x1 .f32 :=
  out0_C_2 c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t) xs

/-- What the output window's staging buffer and the accumulator hold after the body at position n: the case the
    column tile selects, over what the point before left in the accumulator. Where the output window is idle its
    component is a placeholder nothing consults. -/
def outsAt0 (c : Dev nD) : (n : ℕ) → n < cfg0.N → Vec F S1024x1 .f32 × Vec F S1024x1 .f32
  | 0, hn => (accA m c ⟨0, hn⟩ (Nat.zero_mod 8) (by show ¬ (0 % 8 = 7); decide), accA m c ⟨0, hn⟩ (Nat.zero_mod 8) (by show ¬ (0 % 8 = 7); decide))
  | n + 1, hn =>
    if h0 : (n + 1) % 8 = 0 then
      (accA m c ⟨n + 1, hn⟩ h0 (by show ¬ ((n + 1) % 8 = 7); omega), accA m c ⟨n + 1, hn⟩ h0 (by show ¬ ((n + 1) % 8 = 7); omega))
    else
      if h1 : (n + 1) % 8 = 7 then
        (outC m c ⟨n + 1, hn⟩ h0 h1 (outsAt0 c n (Nat.lt_of_succ_lt hn)).2, accC m c ⟨n + 1, hn⟩ h0 h1 (outsAt0 c n (Nat.lt_of_succ_lt hn)).2)
      else
        (accB m c ⟨n + 1, hn⟩ h0 h1 (outsAt0 c n (Nat.lt_of_succ_lt hn)).2, accB m c ⟨n + 1, hn⟩ h0 h1 (outsAt0 c n (Nat.lt_of_succ_lt hn)).2)

theorem outsAt0_A (c : Dev nD) (t : Fin cfg0.N) (h0 : t.val % 8 = 0) (h1 : ¬t.val % 8 = 7) :
    outsAt0 m c t.val t.isLt = (accA m c t h0 h1, accA m c t h0 h1) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = (accB m c t h0 h1 (outsAt0 m c (t.val - 1) (Nat.lt_of_le_of_lt (Nat.sub_le _ _) t.isLt)).2,
      accB m c t h0 h1 (outsAt0 m c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (outC m c t h0 h1 (outsAt0 m c (t.val - 1) (Nat.lt_of_le_of_lt (Nat.sub_le _ _) t.isLt)).2,
      accC m c t h0 h1 (outsAt0 m c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_pos h1).trans rfl)

/-- The region invariant before position n: before the first point the accumulator at anything; afterwards at what
    the point before left in it. -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM0_0 fullShare ((outsAt0 m c n hn).2) := rfl
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core c: the arrays as the region finds them; after the body each input's buffer
    at its block and the output's at outsAt0; the accumulator carried in the invariant; the normalized array held at
    one half of the full share by each of the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the column tile says which case the point is in; the
    invariant hands the body the accumulator at what the point before left (at anything before the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold accA sout0_A_0; (try dsimp only)
    by_cases hz : t.val = 0
    · rw [PhiS_castSucc m c t, PhiS_zero m c _ _ hz, scopedRest_acc]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold outC accC out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold accB sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_acc]
  iintro HS0
  iexists _; iexact HS0

end Cert.Kernel.Hand

end
-- ==== Proof.KernelRun.lean ====
/-
  The run of @main of the row-sum program. The normalized array is read by two input windows: its buffer, held whole when
  the region is entered, is dealt to them one half of the full share each, and the halves are joined again when the
  region is left, so that the host lines after the region find it whole. What those lines then compute is what a
  host program computes in which the region is replaced by one constant: the row sums the write-backs leave.
-/
import proofs.«110751_j72619307041593_1_alg».proof.Proof.KernelFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the normalized array's and the row sums'. -/
theorem arrBufs_eq (c : Dev nD) (W : (b : Ref sig .tc) → Buf (Elt F) ((c : Thread nD τ).loc b)) :
    (Pipeline.arrBufs spec0 c W : sProp 𝕄)
      = iprop((((c : Thread nD τ).loc main_v4) ↦{fullShare} W main_v4) ∗ (((c : Thread nD τ).loc main_v5) ↦{fullShare} W main_v5)) := by
  unfold Pipeline.arrBufs
  exact bigSep_eq_bigSepL_of_eq [main_v4, main_v5] (by decide) (by decide) _

/-- The pipeline's arrays, window by window: the normalized array at the left and at the right half of the full
    share, the row sums at the full share. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v4) ↦{fullShare.left} G 0) ∗ (((c : Thread nD τ).loc main_v4) ↦{fullShare.right} G 1)
          ∗ (((c : Thread nD τ).loc main_v5) ↦{fullShare} G 2)) := by
  unfold Dat.arrays
  rw [bigSep_W0]
  rw [(arr_whole0 0).set_eq_univ, (arr_whole0 2).set_eq_univ]
  rfl

/-- Dealing: the two buffers whole at contents W make the pipeline's arrays at G, when G is W window by window. -/
theorem arrays_of_arrBufs (c : Dev nD) (W : (b : Ref sig .tc) → Buf (Elt F) ((c : Thread nD τ).loc b))
    (G : (w : Fin cfg0.W) → Buf (Elt F) ((cfg0.win w).arr.view.loc (c : Thread nD τ)))
    (h0 : G 0 = W main_v4) (h1 : G 1 = W main_v4) (h2 : G 2 = W main_v5) :
    (Pipeline.arrBufs spec0 c W : sProp 𝕄) ⊢ (dats m 0 c).arrays G := by
  rw [arrBufs_eq, arrays_eq3, h0, h1, h2]
  iintro ⟨H4, H5⟩
  ihave H := (pointsTo_share (PosShare.mem_left_op_right fullShare)).1 $$ H4
  icases H with ⟨Hl, Hr⟩
  isplitl [Hl]; · iexact Hl
  isplitl [Hr]; · iexact Hr
  iexact H5

/-- Collecting: the converse. -/
theorem arrBufs_of_arrays (c : Dev nD) (W : (b : Ref sig .tc) → Buf (Elt F) ((c : Thread nD τ).loc b))
    (G : (w : Fin cfg0.W) → Buf (Elt F) ((cfg0.win w).arr.view.loc (c : Thread nD τ)))
    (h0 : G 0 = W main_v4) (h1 : G 1 = W main_v4) (h2 : G 2 = W main_v5) :
    ((dats m 0 c).arrays G : sProp 𝕄) ⊢ Pipeline.arrBufs spec0 c W := by
  rw [arrBufs_eq, arrays_eq3, h0, h1, h2]
  iintro ⟨Hl, Hr, H5⟩
  isplitl [Hl Hr]
  · iapply (pointsTo_share (PosShare.mem_left_op_right fullShare)).2
    isplitl [Hl]; · iexact Hl
    iexact Hr
  iexact H5

/-- The row sums as the write-backs leave them. -/
def rowSums (c : Dev nD) : main_v5.ty.Contents (Elt F) := (dats m 0 c).arrAt 2 cfg0.N

/-- What the device's buffers hold when the region is left: the row sums written, everything else as it was found. -/
abbrev Ex (c : Dev nD) : Valuation τ sig (Elt F) := StableHlo.after [StableHlo.nullary main_v5 (rowSums m c)] (V0 m c)

theorem Ex_v5 (c : Dev nD) : Ex m c (Proc.devRef .tc main_v5) = rowSums m c := by
  unfold Ex; after_results

theorem Ex_ne (c : Dev nD) (b : Ref sig .tc) (hb : b ≠ main_v5) : Ex m c (Proc.devRef .tc b) = V0 m c (Proc.devRef .tc b) := by
  unfold Ex
  rw [StableHlo.after_cons, StableHlo.after_nil, StableHlo.nullary_result_ne _ _ _ _ hb]

theorem hE (c : Dev nD) : ∀ b ∈ Pipeline.restRefs sig spec0, Ex m c (Proc.devRef .tc b) = V0 m c (Proc.devRef .tc b) := fun b hb =>
  Ex_ne m c b fun h => (Finset.mem_sdiff.mp hb).2 (Finset.mem_image.mpr ⟨2, Finset.mem_univ _, h ▸ rfl⟩)

theorem arrAt_in0 (c : Dev nD) (n : ℕ) : (dats m 0 c).arrAt 0 n = V m c main_v4 :=
  ((dats m 0 c).arrAt_in 0 rfl n).trans (A_eq m c 0)
theorem arrAt_in1 (c : Dev nD) (n : ℕ) : (dats m 0 c).arrAt 1 n = V m c main_v4 :=
  ((dats m 0 c).arrAt_in 1 rfl n).trans (A_eq m c 1)

theorem hsplit (c : Dev nD) : (Pipeline.arrBufs spec0 c (fun b => V0 m c (Proc.devRef .tc b)) : sProp 𝕄) ⊢ (dats m 0 c).arrays ((dats m 0 c).arrAt · 0) :=
  arrays_of_arrBufs m c _ _ (arrAt_in0 m c 0) (arrAt_in1 m c 0) (A_eq m c 2)

theorem hjoin (c : Dev nD) : ((dats m 0 c).arrays ((dats m 0 c).arrAt · cfg0.N) : sProp 𝕄) ⊢ Pipeline.arrBufs spec0 c (fun b => Ex m c (Proc.devRef .tc b)) :=
  arrBufs_of_arrays m c _ _ ((arrAt_in0 m c _).trans (Ex_ne m c main_v4 (by decide)).symm) ((arrAt_in1 m c _).trans (Ex_ne m c main_v4 (by decide)).symm)
    (Ex_v5 m c).symm

theorem hsplitN (c : Dev nD) : (Pipeline.arrBufs spec0 c (fun b => Ex m c (Proc.devRef .tc b)) : sProp 𝕄) ⊢ (dats m 0 c).arrays ((dats m 0 c).arrAt · cfg0.N) :=
  arrays_of_arrBufs m c _ _ ((arrAt_in0 m c _).trans (Ex_ne m c main_v4 (by decide)).symm) ((arrAt_in1 m c _).trans (Ex_ne m c main_v4 (by decide)).symm)
    (Ex_v5 m c).symm

set_option backward.isDefEq.respectTransparency.types false in
/-- Every weakly fair execution of @main terminates; the row sums end at what the write-backs leave, the normalized array
    as the region found it, and every other buffer at what the host lines after the region compute. -/
theorem run_main : θ_run defs (onTc (τ := τ) (main (F := F))) (s₀ m ρ) (Pipeline.SharedPost cfgs (dats m) 0 (Ex m) [hostOps1]) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (opss := [hostOps1])
    (hsub := sfx_sub) (hfresh := sfx_fresh) (hkeep := sfx_keeps) (hmain := hmain m Variants.none)
    (hsplit := hsplit m) (E := Ex m) (hE := hE m) (hjoin := hjoin m) (hsplitN := hsplitN m) (hin := hin m) (hout := hout m)

/-- The host lines before the region leave the argument array as launched. -/
theorem V0_arg0 (c : Dev nD) : V0 m c (Proc.devRef .tc main_arg0) = m ((c.tc : Thread nD τ).loc main_arg0) := by
  unfold V0
  simp only [hostOps0, hostOps0_1, List.flatten_cons, List.flatten_nil, List.append_nil, List.cons_append, List.nil_append]
  after_results

/-- So do the lines after it. -/
theorem tail_arg0 (c : Dev nD) (W : Valuation τ sig (Elt F)) :
    StableHlo.after (List.flatten [hostOps1]) W (Proc.devRef .tc main_arg0) = W (Proc.devRef .tc main_arg0) := by
  simp only [hostOps1, List.flatten_cons, List.flatten_nil, List.append_nil, List.cons_append, List.nil_append]
  after_results

/-- The argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 rfl (by decide))).trans
      ((tail_arg0 c (Ex m c)).trans ((Ex_ne m c main_arg0 (by decide)).trans (V0_arg0 m c)))) (run_main m ρ)

end Cert.Kernel.Hand

end
-- ==== Proof.KernelIdealRuns.lean ====
/-
  The row-sum kernel's region, shared by the runs of its three control cases: @main around the region, the blocks the
  two input windows stage of the ONE normalized array, the closed forms of the body's two conditions over the grid
  (the column tile is the first, the column tile is the last), where the output window is idle, and the memrefs the
  body is called with.
-/
import proofs.«110751_j72619307041593_1_alg».proof.Proof.Gen.KernelIdeal.Launch
import proofs.«110751_j72619307041593_1_alg».proof.Proof.Gen.KernelIdeal.Skeleton
import proofs.«110751_j72619307041593_1_alg».proof.Proof.Gen.KernelIdeal.Points
import proofs.«110751_j72619307041593_1_alg».proof.Proof.LibFrameSharedTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What the device's buffers hold when the region is entered: the launch contents after the norm, the clamp and the
    division that make the normalized array. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines that normalize, the region, and the host lines that finish the loss. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1] [hostOps1]
    (by simp only [List.Forall]; exact ⟨hostOps0_sub, hostOps0_1_sub⟩)
    (by simp only [List.Forall]; exact ⟨hostOps0_fresh, hostOps0_1_fresh⟩) main_chain

theorem sfx_sub : ∀ ops ∈ ([hostOps1] : List (List (HloOp τ sig (Elt F)))), ∀ op ∈ ops, op.bufs ⊆ StableHlo.tcRefs τ sig := by
  intro ops hops op hop
  simp only [List.mem_cons, List.mem_nil_iff, or_false] at hops
  rcases hops with rfl
  exact (List.forall_iff_forall_mem.mp hostOps1_sub) op hop
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- The lines after the region write neither the normalized array nor the row sums. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, Finset.mem_singleton] <;> exact StableHlo.devRef_ne_of_ne (by decide)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions over the grid -/

/-- The column tile is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The column tile is the last one. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1024x1 .f32 := (Memref.whole cc0_stg2_0 : Memref sig .tc .vmem S1024x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x1 .f32 := Memref.whole cc0_scratch0
abbrev VS0_0 : View sig .tc .vmem S1024x1 .f32 := scM0_0.view

/-- The scoped rest is the accumulator owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.KernelIdealCases.lean ====
/-
  The row-sum kernel's body run once per control case. Case A: the column tile is the first, so the accumulator is
  zeroed, then the tile's row sums are added; the output window is left alone. Case B: a middle column tile: the row
  sums are added to what the point before left. Case C: the last column tile: the sums are added and the accumulator
  is copied to the output window. Each run finds, by unification, the pieces its stores leave in each buffer.
-/
import proofs.«110751_j72619307041593_1_alg».proof.Proof.KernelIdealRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First column tile: the output window (arg4) is handed back untouched; the accumulator (arg5), found at anything,
    ends with the pieces LS0. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x128 .f32) (x1 : Vec F S1024x128 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨[], ?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- A middle column tile: the output window is handed back untouched; the accumulator, found at what the point before
    left (xs0), ends with the pieces LS0. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x128 .f32) (x1 : Vec F S1024x128 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨[], ?_, fun xi2 E K => ?run⟩
  case run =>
    simp only [cc0__rowsum_kernel_eq_skeleton]; unfold cc0__rowsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- The last column tile: the output window, found at anything, ends with the pieces L2; the accumulator, found at
    what the point before left (xs0), with the pieces LS0. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x128 .f32) (x1 : Vec F S1024x128 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__rowsum_kernel i arg2 harg2 arg3 harg3 arg4 harg4 arg5 harg5) K } := by
  refine ⟨?_, ?_, fun E K => ?run⟩
  case run =>
    simp only [cc0__rowsum_kernel_eq_skeleton]; unfold cc0__rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

end Cert.KernelIdeal.Hand

end
-- ==== Proof.KernelIdealFrame.lean ====
/-
  The frame run of the row-sum program: what the accumulator and the output window hold after every grid point, the
  pipeline's proof data, the body obligation case by case, how the ONE normalized array is dealt between the two input
  windows (one half of the full share each) and collected again, and the run of @main: every weakly fair execution
  terminates with the row sums at what the write-backs left and every other buffer at what the host lines compute.
-/
import proofs.«110751_j72619307041593_1_alg».proof.Proof.KernelIdealCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x128 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What the first-column-tile case leaves in the accumulator. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x128 .f32) : Vec F S1024x1 .f32 :=
  VS0_0.read (Elt F) (VS0_0.writes (Elt F) VS0_0.junk (kernelRun0_A c i arg2 harg2 arg3 harg3 arg4 harg4 arg5 harg5 hc0 hc1 x0 x1).2.1)

theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x128 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What a middle-column-tile case leaves in the accumulator. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x128 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What the last-column-tile case leaves in the output window. -/
def out0_C_2 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What the last-column-tile case leaves in the accumulator. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## The three cases at a grid point -/

/-- The accumulator after a point whose column tile is the first. -/
def accA (c : Dev nD) (t : Fin cfg0.N) (h0 : t.val % 8 = 0) (h1 : ¬t.val % 8 = 7) : Vec F S1024x1 .f32 :=
  sout0_A_0 c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)
/-- The accumulator after a point whose column tile is a middle one, from what the point before left. -/
def accB (c : Dev nD) (t : Fin cfg0.N) (h0 : ¬t.val % 8 = 0) (h1 : ¬t.val % 8 = 7) (xs : Vec F S1024x1 .f32) : Vec F S1024x1 .f32 :=
  sout0_B_0 c (grid0.coords t) (ms0_0 t) (hs0_0 t) (ms0_1 t) (hs0_1 t) (ms0_2 t) (hs0_2 t) scM0_0 (Memref.isWhole_whole _)
    (fun h => h0 ((hcond0_0 t).mp h)) (fun h => h1 ((hcond0_1 t).mp h)) (iblk m c 0 t) (iblk m c 1 t) xs
/-- The accumulator after a point whose column tile is the last, from what the point before left. -/
def accC (c : Dev nD) (t : Fin cfg0.N) (h0 : ¬t.val % 8 = 0) (h1 : t.val % 8 = 7) (xs : Vec F S1024x1 .f32) : Vec F S1024x1 .f32 :=
  sout0_C_0 c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t) xs
/-- The output window after a point whose column tile is the last. -/
def outC (c : Dev nD) (t : Fin cfg0.N) (h0 : ¬t.val % 8 = 0) (h1 : t.val % 8 = 7) (xs : Vec F S1024x1 .f32) : Vec F S1024x1 .f32 :=
  out0_C_2 c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t) xs

/-- What the output window's staging buffer and the accumulator hold after the body at position n: the case the
    column tile selects, over what the point before left in the accumulator. Where the output window is idle its
    component is a placeholder nothing consults. -/
def outsAt0 (c : Dev nD) : (n : ℕ) → n < cfg0.N → Vec F S1024x1 .f32 × Vec F S1024x1 .f32
  | 0, hn => (accA m c ⟨0, hn⟩ (Nat.zero_mod 8) (by show ¬ (0 % 8 = 7); decide), accA m c ⟨0, hn⟩ (Nat.zero_mod 8) (by show ¬ (0 % 8 = 7); decide))
  | n + 1, hn =>
    if h0 : (n + 1) % 8 = 0 then
      (accA m c ⟨n + 1, hn⟩ h0 (by show ¬ ((n + 1) % 8 = 7); omega), accA m c ⟨n + 1, hn⟩ h0 (by show ¬ ((n + 1) % 8 = 7); omega))
    else
      if h1 : (n + 1) % 8 = 7 then
        (outC m c ⟨n + 1, hn⟩ h0 h1 (outsAt0 c n (Nat.lt_of_succ_lt hn)).2, accC m c ⟨n + 1, hn⟩ h0 h1 (outsAt0 c n (Nat.lt_of_succ_lt hn)).2)
      else
        (accB m c ⟨n + 1, hn⟩ h0 h1 (outsAt0 c n (Nat.lt_of_succ_lt hn)).2, accB m c ⟨n + 1, hn⟩ h0 h1 (outsAt0 c n (Nat.lt_of_succ_lt hn)).2)

theorem outsAt0_A (c : Dev nD) (t : Fin cfg0.N) (h0 : t.val % 8 = 0) (h1 : ¬t.val % 8 = 7) :
    outsAt0 m c t.val t.isLt = (accA m c t h0 h1, accA m c t h0 h1) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 m c t.val t.isLt = (accB m c t h0 h1 (outsAt0 m c (t.val - 1) (Nat.lt_of_le_of_lt (Nat.sub_le _ _) t.isLt)).2,
      accB m c t h0 h1 (outsAt0 m c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (outC m c t h0 h1 (outsAt0 m c (t.val - 1) (Nat.lt_of_le_of_lt (Nat.sub_le _ _) t.isLt)).2,
      accC m c t h0 h1 (outsAt0 m c (t.val - 1) (Nat.lt_of_le_of_lt (Nat.sub_le _ _) t.isLt)).2) := by
  obtain ⟨n, hn⟩ := t
  cases n with
  | zero => exact absurd (Nat.zero_mod 8) h0
  | succ n => exact (dif_neg h0).trans ((dif_pos h1).trans rfl)

/-- The region invariant before position n: before the first point the accumulator at anything; afterwards at what
    the point before left in it. -/
def PhiS (c : Dev nD) : (n : ℕ) → n ≤ cfg0.N → sProp 𝕄
  | 0, _ => Pipeline.scopedRest spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest spec0 c := by
  subst hz; rfl
theorem PhiS_succ (c : Dev nD) (n : ℕ) (hn : n < cfg0.N) :
    PhiS m c (n + 1) hn = owns (c : Thread nD τ) scM0_0 fullShare ((outsAt0 m c n hn).2) := rfl
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core c: the arrays as the region finds them; after the body each input's buffer
    at its block and the output's at outsAt0; the accumulator carried in the invariant; the normalized array held at
    one half of the full share by each of the two windows that read it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the column tile says which case the point is in; the
    invariant hands the body the accumulator at what the point before left (at anything before the first point) and
    takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold accA sout0_A_0; (try dsimp only)
    by_cases hz : t.val = 0
    · rw [PhiS_castSucc m c t, PhiS_zero m c _ _ hz, scopedRest_acc]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun h => h0 (by rw [h])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold outC accC out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold accB sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_acc]
  iintro HS0
  iexists _; iexact HS0

end Cert.KernelIdeal.Hand

end
-- ==== Proof.KernelIdealRun.lean ====
/-
  The run of @main of the row-sum program. The normalized array is read by two input windows: its buffer, held whole when
  the region is entered, is dealt to them one half of the full share each, and the halves are joined again when the
  region is left, so that the host lines after the region find it whole. What those lines then compute is what a
  host program computes in which the region is replaced by one constant: the row sums the write-backs leave.
-/
import proofs.«110751_j72619307041593_1_alg».proof.Proof.KernelIdealFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays are the normalized array's and the row sums'. -/
theorem arrBufs_eq (c : Dev nD) (W : (b : Ref sig .tc) → Buf (Elt F) ((c : Thread nD τ).loc b)) :
    (Pipeline.arrBufs spec0 c W : sProp 𝕄)
      = iprop((((c : Thread nD τ).loc main_v4) ↦{fullShare} W main_v4) ∗ (((c : Thread nD τ).loc main_v5) ↦{fullShare} W main_v5)) := by
  unfold Pipeline.arrBufs
  exact bigSep_eq_bigSepL_of_eq [main_v4, main_v5] (by decide) (by decide) _

/-- The pipeline's arrays, window by window: the normalized array at the left and at the right half of the full
    share, the row sums at the full share. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_v4) ↦{fullShare.left} G 0) ∗ (((c : Thread nD τ).loc main_v4) ↦{fullShare.right} G 1)
          ∗ (((c : Thread nD τ).loc main_v5) ↦{fullShare} G 2)) := by
  unfold Dat.arrays
  rw [bigSep_W0]
  rw [(arr_whole0 0).set_eq_univ, (arr_whole0 2).set_eq_univ]
  rfl

/-- Dealing: the two buffers whole at contents W make the pipeline's arrays at G, when G is W window by window. -/
theorem arrays_of_arrBufs (c : Dev nD) (W : (b : Ref sig .tc) → Buf (Elt F) ((c : Thread nD τ).loc b))
    (G : (w : Fin cfg0.W) → Buf (Elt F) ((cfg0.win w).arr.view.loc (c : Thread nD τ)))
    (h0 : G 0 = W main_v4) (h1 : G 1 = W main_v4) (h2 : G 2 = W main_v5) :
    (Pipeline.arrBufs spec0 c W : sProp 𝕄) ⊢ (dats m 0 c).arrays G := by
  rw [arrBufs_eq, arrays_eq3, h0, h1, h2]
  iintro ⟨H4, H5⟩
  ihave H := (pointsTo_share (PosShare.mem_left_op_right fullShare)).1 $$ H4
  icases H with ⟨Hl, Hr⟩
  isplitl [Hl]; · iexact Hl
  isplitl [Hr]; · iexact Hr
  iexact H5

/-- Collecting: the converse. -/
theorem arrBufs_of_arrays (c : Dev nD) (W : (b : Ref sig .tc) → Buf (Elt F) ((c : Thread nD τ).loc b))
    (G : (w : Fin cfg0.W) → Buf (Elt F) ((cfg0.win w).arr.view.loc (c : Thread nD τ)))
    (h0 : G 0 = W main_v4) (h1 : G 1 = W main_v4) (h2 : G 2 = W main_v5) :
    ((dats m 0 c).arrays G : sProp 𝕄) ⊢ Pipeline.arrBufs spec0 c W := by
  rw [arrBufs_eq, arrays_eq3, h0, h1, h2]
  iintro ⟨Hl, Hr, H5⟩
  isplitl [Hl Hr]
  · iapply (pointsTo_share (PosShare.mem_left_op_right fullShare)).2
    isplitl [Hl]; · iexact Hl
    iexact Hr
  iexact H5

/-- The row sums as the write-backs leave them. -/
def rowSums (c : Dev nD) : main_v5.ty.Contents (Elt F) := (dats m 0 c).arrAt 2 cfg0.N

/-- What the device's buffers hold when the region is left: the row sums written, everything else as it was found. -/
abbrev Ex (c : Dev nD) : Valuation τ sig (Elt F) := StableHlo.after [StableHlo.nullary main_v5 (rowSums m c)] (V0 m c)

theorem Ex_v5 (c : Dev nD) : Ex m c (Proc.devRef .tc main_v5) = rowSums m c := by
  unfold Ex; after_results

theorem Ex_ne (c : Dev nD) (b : Ref sig .tc) (hb : b ≠ main_v5) : Ex m c (Proc.devRef .tc b) = V0 m c (Proc.devRef .tc b) := by
  unfold Ex
  rw [StableHlo.after_cons, StableHlo.after_nil, StableHlo.nullary_result_ne _ _ _ _ hb]

theorem hE (c : Dev nD) : ∀ b ∈ Pipeline.restRefs sig spec0, Ex m c (Proc.devRef .tc b) = V0 m c (Proc.devRef .tc b) := fun b hb =>
  Ex_ne m c b fun h => (Finset.mem_sdiff.mp hb).2 (Finset.mem_image.mpr ⟨2, Finset.mem_univ _, h ▸ rfl⟩)

theorem arrAt_in0 (c : Dev nD) (n : ℕ) : (dats m 0 c).arrAt 0 n = V m c main_v4 :=
  ((dats m 0 c).arrAt_in 0 rfl n).trans (A_eq m c 0)
theorem arrAt_in1 (c : Dev nD) (n : ℕ) : (dats m 0 c).arrAt 1 n = V m c main_v4 :=
  ((dats m 0 c).arrAt_in 1 rfl n).trans (A_eq m c 1)

theorem hsplit (c : Dev nD) : (Pipeline.arrBufs spec0 c (fun b => V0 m c (Proc.devRef .tc b)) : sProp 𝕄) ⊢ (dats m 0 c).arrays ((dats m 0 c).arrAt · 0) :=
  arrays_of_arrBufs m c _ _ (arrAt_in0 m c 0) (arrAt_in1 m c 0) (A_eq m c 2)

theorem hjoin (c : Dev nD) : ((dats m 0 c).arrays ((dats m 0 c).arrAt · cfg0.N) : sProp 𝕄) ⊢ Pipeline.arrBufs spec0 c (fun b => Ex m c (Proc.devRef .tc b)) :=
  arrBufs_of_arrays m c _ _ ((arrAt_in0 m c _).trans (Ex_ne m c main_v4 (by decide)).symm) ((arrAt_in1 m c _).trans (Ex_ne m c main_v4 (by decide)).symm)
    (Ex_v5 m c).symm

theorem hsplitN (c : Dev nD) : (Pipeline.arrBufs spec0 c (fun b => Ex m c (Proc.devRef .tc b)) : sProp 𝕄) ⊢ (dats m 0 c).arrays ((dats m 0 c).arrAt · cfg0.N) :=
  arrays_of_arrBufs m c _ _ ((arrAt_in0 m c _).trans (Ex_ne m c main_v4 (by decide)).symm) ((arrAt_in1 m c _).trans (Ex_ne m c main_v4 (by decide)).symm)
    (Ex_v5 m c).symm

set_option backward.isDefEq.respectTransparency.types false in
/-- Every weakly fair execution of @main terminates; the row sums end at what the write-backs leave, the normalized array
    as the region found it, and every other buffer at what the host lines after the region compute. -/
theorem run_main : θ_run defs (onTc (τ := τ) (main (F := F))) (s₀ m ρ) (Pipeline.SharedPost cfgs (dats m) 0 (Ex m) [hostOps1]) :=
  Pipeline.θ_run_frame_shared_around cfgs (dats m) (0 : Fin 1) cellOf_inj winFacts₀0 block_pos0 arr_whole0 stage_whole0 defs₀ Variants.none m ρ main
    (hbody := fun c => (body_obligation m c).loose) (howed := fun _ _ => rfl) (V₀ := V0 m) (opss := [hostOps1])
    (hsub := sfx_sub) (hfresh := sfx_fresh) (hkeep := sfx_keeps) (hmain := hmain m Variants.none)
    (hsplit := hsplit m) (E := Ex m) (hE := hE m) (hjoin := hjoin m) (hsplitN := hsplitN m) (hin := hin m) (hout := hout m)

/-- The host lines before the region leave the argument array as launched. -/
theorem V0_arg0 (c : Dev nD) : V0 m c (Proc.devRef .tc main_arg0) = m ((c.tc : Thread nD τ).loc main_arg0) := by
  unfold V0
  simp only [hostOps0, hostOps0_1, List.flatten_cons, List.flatten_nil, List.append_nil, List.cons_append, List.nil_append]
  after_results

/-- So do the lines after it. -/
theorem tail_arg0 (c : Dev nD) (W : Valuation τ sig (Elt F)) :
    StableHlo.after (List.flatten [hostOps1]) W (Proc.devRef .tc main_arg0) = W (Proc.devRef .tc main_arg0) := by
  simp only [hostOps1, List.flatten_cons, List.flatten_nil, List.append_nil, List.cons_append, List.nil_append]
  after_results

/-- The argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c =>
    ((h c).2 main_arg0 (Pipeline.mem_restRefs_of main_arg0 rfl (by decide))).trans
      ((tail_arg0 c (Ex m c)).trans ((Ex_ne m c main_arg0 (by decide)).trans (V0_arg0 m c)))) (run_main m ρ)

end Cert.KernelIdeal.Hand

end
-- ==== Proof.KernelIdealPieces.lean ====
/-
  What each control case of the row-sum body leaves, as the body's arithmetic: in every case the accumulator ends at
  the point's update of what it held (of zero, where the column tile is the first), and where the column tile is the
  last the output window ends at the same value.
-/
import proofs.«110751_j72619307041593_1_alg».proof.Proof.KernelIdealFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

theorem hz2 : (![0, 0] : Fin 2 → Nat) = fun _ => 0 := by funext a; fin_cases a <;> rfl

/-- First column tile: the accumulator ends at the update of the reset value. -/
theorem sout0_A_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 x1 : Vec F S1024x128 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero hz2]
  simp only [View.readAt_eq_ld, harg2.read_unread, harg3.read_unread,
    View.ld_unit_zero (S := S1024x128) hz2, View.ld_unit_zero (S := S1024x1) hz2]
  rw [View.readCov_unit_zero (S := S1024x1) arg5.view hz2]

/-- A middle column tile: the accumulator ends at the update of what it held. -/
theorem sout0_B_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 x1 : Vec F S1024x128 .f32) (xs0 : Vec F S1024x1 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread,
    View.ld_unit_zero (S := S1024x128) hz2, View.ld_unit_zero (S := S1024x1) hz2]

/-- The last column tile: the same for the accumulator, -/
theorem sout0_C_0_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1024x128) hz2, View.ld_unit_zero (S := S1024x1) hz2]

/-- and the output window holds the accumulator's new value. -/
theorem out0_C_2_eq (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 x1 : Vec F S1024x128 .f32) (xs0 : Vec F S1024x1 .f32) :
    out0_C_2 c i arg2 harg2 arg3 harg3 arg4 harg4 arg5 harg5 hc0 hc1 x0 x1 xs0 = k0_pay2 x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread,
    View.ld_unit_zero (S := S1024x128) hz2, View.ld_unit_zero (S := S1024x1) hz2]
  exact View.readCov_unit_zero (S := S1024x1) arg5.view hz2 _ _

end Cert.KernelIdeal.Hand

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.KernelIdealTile.lean ====
/-
  One grid point's arithmetic at the extended reals. The body takes a block x of 1024 rows and a block w of 1024
  rows of the normalized array, forms all 1024 × 1024 inner products (w enters transposed), doubles them,
  exponentiates, sums each row over the 1024 columns, and adds the row's sum to what the accumulator held. Changes of
  float format are the identity. The reset value is zero.
-/
import proofs.«110751_j72619307041593_1_alg».proof.Proof.Gen.KernelIdeal.Skeleton
import proofs.«110751_j72619307041593_1_alg».proof.Proof.LibMatmulNN
import proofs.«110751_j72619307041593_1_alg».proof.Proof.LibLaneReduce
import Idealize.ShloMosaic.Lib.ValueLayout
import Idealize.ShloMosaic.Lib.Pipeline.Value

noncomputable section

open scoped BigOperators

namespace Cert.KernelIdeal.Tile

open Cert.KernelIdeal Cert.KernelIdeal.Gen
open Idealize.ShloMosaic Idealize.ShloMosaic.ValueIdx

/-- The reset value of the accumulator is zero in every row. -/
theorem pay1_apply (p : Fin 1024) : k0_pay1 (F := Ideal) (ix2 p (0 : Fin 1)) = 0 := by
  unfold k0_pay1
  refine (congrFun (shapeCast_self _ _) _).trans ?_
  exact Ideal.ofBits_zero_f32

/-- Row p of the accumulator after a point: what it held plus the row's sum, over the 1024 columns q, of
    exp ((∑ k, x[p, k] · w[q, k]) · 2). -/
theorem pay2_apply (x w : Vec Ideal S1024x128 .f32) (acc : Vec Ideal S1024x1 .f32) (p : Fin 1024) :
    k0_pay2 (F := Ideal) x w acc (ix2 p (0 : Fin 1))
      = acc (ix2 p (0 : Fin 1)) + ∑ q : Fin 1024, Ideal.exp ((∑ k : Fin 128, x (ix2 p k) * w (ix2 q k)) * Ideal.ofBits .f32 0x40000000#32) := by
  unfold k0_pay2
  refine (congrFun (shapeCast_self _ _) _).trans ?_
  refine congrArg (acc (ix2 p (0 : Fin 1)) + ·) ?_
  refine (LibLaneReduce.sumLanes_apply _ _ _ _ _ p).trans ?_
  refine Finset.sum_congr rfl fun q _ => ?_
  refine congrArg Ideal.exp ?_
  refine congrArg₂ (· * ·) ?_ rfl
  refine (LibMatmulNN.matmul_zero_apply 1024 128 1024 none _ _ p q).trans ?_
  refine Finset.sum_congr rfl fun k _ => ?_
  refine congrArg₂ (· * ·) ?_ ?_
  · exact congrFun (shapeCast_self x _) _
  · refine (transpose_ix2_apply _ _ k q).trans ?_
    exact congrFun (shapeCast_self w _) _

end Cert.KernelIdeal.Tile

end
-- ==== Proof.LossAlgebra.lean ====
/-
  The mathematics of the contrastive loss's two arrangements, on the extended reals, for ANY array z of 8192 rows of
  128 entries (no finiteness is used: only that addition and multiplication commute and associate, and that dividing
  by one half is doubling).

  Write s(i, j) = ∑ k, z[i, k] · z[j, k] and e(i, j) = exp (s(i, j) / ½). One arrangement forms the whole 8192 × 8192
  array e, sums each row, and picks the diagonal entry e(i, i) and the partner entry e(i, (i + 4096) mod 8192) out of it.
  The other never forms the array: it adds up, column tile by column tile (eight tiles of 1024 columns), the row sums
  of exp (s · 2); computes the diagonal entry from ∑ k, z[i, k]²; and computes the partner entry for the first 4096 rows
  only, from ∑ k, z[i, k] · z[i + 4096, k], and uses it for row i + 4096 as well — which is right because s is symmetric.
-/
import Idealize.ShloMosaic.PureOps.Ideal.Laws
import Idealize.ShloMosaic.Lib.ValueIdx

noncomputable section

open scoped BigOperators

namespace LossAlgebra

open Idealize.ShloMosaic Idealize.ShloMosaic.ValueIdx

/-- The bit pattern of one half denotes the real ½. -/
theorem ofBits_half : Ideal.ofBits .f32 0x3F000000#32 = ((1 / 2 : ℝ) : EReal) := by
  simp [Ideal.ofBits, Ideal.ieee, -EReal.coe_mul]; norm_num

/-- The bit pattern of two denotes the real 2. -/
theorem ofBits_two : Ideal.ofBits .f32 0x40000000#32 = ((2 : ℝ) : EReal) := by
  simp [Ideal.ofBits, Ideal.ieee, -EReal.coe_mul]; norm_num

/-- Dividing by one half is doubling, on every extended real. -/
theorem div_half (x : EReal) : Ideal.div x (Ideal.ofBits .f32 0x3F000000#32) = x * Ideal.ofBits .f32 0x40000000#32 := by
  rw [ofBits_half, ofBits_two, Ideal.div_coe (by norm_num : (1 / 2 : ℝ) ≠ 0)]
  norm_num

/-- Entry t of tile T, of 8 tiles of 1024: its position among the 8192. -/
def tileIdx (T : Fin 8) (t : Fin 1024) : Fin 8192 := ⟨1024 * T.val + t.val, by have := T.isLt; have := t.isLt; omega⟩

/-- A sum over 8192 positions is the sum over the tiles of the sums over each tile. -/
theorem sum_tiles {M : Type*} [AddCommMonoid M] (f : Fin 8192 → M) : ∑ j, f j = ∑ T : Fin 8, ∑ t : Fin 1024, f (tileIdx T t) := by
  rw [← Equiv.sum_comp (finProdFinEquiv : Fin 8 × Fin 1024 ≃ Fin 8192) f, Fintype.sum_prod_type]
  refine Finset.sum_congr rfl fun T _ => Finset.sum_congr rfl fun t _ => congrArg f (Fin.ext ?_)
  show t.val + 1024 * T.val = 1024 * T.val + t.val
  omega

abbrev Z := (⟨2, ![8192, 128]⟩ : Shape).Idx → EReal

/-- The inner product of rows i and j. -/
def sim (z : Z) (i j : Fin 8192) : EReal := ∑ k : Fin 128, z (ix2 i k) * z (ix2 j k)

theorem sim_comm (z : Z) (i j : Fin 8192) : sim z i j = sim z j i :=
  Finset.sum_congr rfl fun k _ => mul_comm _ _

/-- Entry (i, j) of the exponentiated similarity array. -/
def expSim (z : Z) (i j : Fin 8192) : EReal := Ideal.exp (Ideal.div (sim z i j) (Ideal.ofBits .f32 0x3F000000#32))

/-- The partner of row i: the row 4096 further on, cyclically. -/
def partner (i : Fin 8192) : Fin 8192 := ⟨(i.val + 4096) % 8192, Nat.mod_lt _ (by decide)⟩

/-- The lower half's row paired with row i: i itself below 4096, i - 4096 from there on. -/
def lower (i : Fin 8192) : Fin 4096 := ⟨i.val % 4096, Nat.mod_lt _ (by decide)⟩
/-- A lower row as a row of the whole array, and the row 4096 below it. -/
def lo (a : Fin 4096) : Fin 8192 := ⟨a.val, by have := a.isLt; omega⟩
def hi (a : Fin 4096) : Fin 8192 := ⟨4096 + a.val, by have := a.isLt; omega⟩

/-- The tiled row sum of exp (s · 2), accumulated tile after tile from zero, is zero plus the whole row's sum of e. -/
theorem rowSum_tiles (z : Z) (i : Fin 8192) :
    ∑ T : Fin 8, ∑ t : Fin 1024, Ideal.exp ((∑ k : Fin 128, z (ix2 i k) * z (ix2 (tileIdx T t) k)) * Ideal.ofBits .f32 0x40000000#32)
      = 0 + ∑ j : Fin 8192, expSim z i j := by
  rw [zero_add, sum_tiles (fun j => expSim z i j)]
  refine Finset.sum_congr rfl fun T _ => Finset.sum_congr rfl fun t _ => ?_
  unfold expSim sim
  rw [div_half]

/-- The diagonal entry from the row's sum of squares (accumulated from zero). -/
theorem diag_eq (z : Z) (i : Fin 8192) :
    Ideal.exp (Ideal.div (0 + ∑ k : Fin 128, z (ix2 i k) * z (ix2 i k)) (Ideal.ofBits .f32 0x3F000000#32)) = expSim z i i := by
  rw [zero_add]; rfl

/-- The partner entry from the pairing of the lower rows with the rows 4096 below them. -/
theorem partner_eq (z : Z) (i : Fin 8192) :
    Ideal.exp (Ideal.div (0 + ∑ k : Fin 128, z (ix2 (lo (lower i)) k) * z (ix2 (hi (lower i)) k)) (Ideal.ofBits .f32 0x3F000000#32))
      = expSim z i (partner i) := by
  rw [zero_add]
  unfold expSim
  by_cases h : i.val < 4096
  · have e1 : lo (lower i) = i := Fin.ext (by show i.val % 4096 = i.val; exact Nat.mod_eq_of_lt h)
    have e2 : hi (lower i) = partner i := Fin.ext (by
      show 4096 + i.val % 4096 = (i.val + 4096) % 8192
      rw [Nat.mod_eq_of_lt h, Nat.mod_eq_of_lt (by omega)]; omega)
    rw [e1, e2]; rfl
  · have hi8 := i.isLt
    have e1 : lo (lower i) = partner i := Fin.ext (by
      show i.val % 4096 = (i.val + 4096) % 8192
      omega)
    have e2 : hi (lower i) = i := Fin.ext (by
      show 4096 + i.val % 4096 = i.val
      omega)
    rw [e1, e2]
    exact congrArg (fun s => Ideal.exp (Ideal.div s _)) (sim_comm z (partner i) i)

/-- The loss: the sum over the rows of minus the logarithm of the partner entry over the square root of the row's sum
    less the diagonal entry. -/
def loss (z : Z) : EReal :=
  0 + ∑ i : Fin 8192, -(Ideal.log (Ideal.div (expSim z i (partner i)) (Ideal.sqrt ((0 + ∑ j : Fin 8192, expSim z i j) - expSim z i i))))

end LossAlgebra

end
-- ==== Proof.KernelIdealValue.lean ====
/-
  The row sums the region leaves, at the extended reals. Grid point t = 8·I + J handles row tile I against column
  tile J: the accumulator's row p gains the sum over the tile's 1024 columns q of exp (s(1024·I + p, 1024·J + q) · 2).
  Started from zero at J = 0, after J = 7 it holds the whole row's sum, which the last column tile's point copies to the
  output window; the eight write-backs (one per row tile) tile the [8192, 1] result.
-/
import proofs.«110751_j72619307041593_1_alg».proof.Proof.KernelIdealRun
import proofs.«110751_j72619307041593_1_alg».proof.Proof.KernelIdealPieces
import proofs.«110751_j72619307041593_1_alg».proof.Proof.KernelIdealTile
import proofs.«110751_j72619307041593_1_alg».proof.Proof.LossAlgebra

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open LossAlgebra

variable (m : (ℓ : Loc nD τ sig) → Buf (Elt Ideal) ℓ)

/-- The normalized array, as the region finds it. -/
abbrev zOf (c : Dev nD) : LossAlgebra.Z := V m c main_v4

/-- The printed index maps over the grid: the rows' window and the output move with t / 8, the columns' window with t % 8. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

def rowTile (t : Fin cfg0.N) : Fin 8 := ⟨t.val / 8, by have := t.isLt; have h : cfg0.N = 64 := N_0; omega⟩
def colTile (t : Fin cfg0.N) : Fin 8 := ⟨t.val % 8, Nat.mod_lt _ (by decide)⟩

/-- The rows' block at point t is row tile t / 8 of the normalized array. -/
theorem iblk0_apply (c : Dev nD) (t : Fin cfg0.N) (p : Fin 1024) (k : Fin 128) :
    iblk m c 0 t (ix2 p k) = zOf m c (ix2 (tileIdx (rowTile t) p) k) := by
  obtain ⟨e0, e1, -⟩ := idx_facts t
  show V m c main_v4 (((cfg0.win 0).blk t).view.emb (ix2 p k)) = V m c main_v4 (ix2 (tileIdx (rowTile t) p) k)
  refine congrArg (V m c main_v4) (funext fun a => Fin.ext ?_)
  match a with
  | ⟨0, _⟩ => show win0_0.index t (0 : Fin 2) * 1024 + 1 * p.val = 1024 * (t.val / 8) + p.val; omega
  | ⟨1, _⟩ => show win0_0.index t (1 : Fin 2) * 128 + 1 * k.val = k.val; omega

/-- The columns' block at point t is row tile t % 8 of the normalized array. -/
theorem iblk1_apply (c : Dev nD) (t : Fin cfg0.N) (q : Fin 1024) (k : Fin 128) :
    iblk m c 1 t (ix2 q k) = zOf m c (ix2 (tileIdx (colTile t) q) k) := by
  obtain ⟨-, -, e0, e1, -⟩ := idx_facts t
  show V m c main_v4 (((cfg0.win 1).blk t).view.emb (ix2 q k)) = V m c main_v4 (ix2 (tileIdx (colTile t) q) k)
  refine congrArg (V m c main_v4) (funext fun a => Fin.ext ?_)
  match a with
  | ⟨0, _⟩ => show win0_1.index t (0 : Fin 2) * 1024 + 1 * q.val = 1024 * (t.val % 8) + q.val; omega
  | ⟨1, _⟩ => show win0_1.index t (1 : Fin 2) * 128 + 1 * k.val = k.val; omega

/-- One column tile's share of row i's sum. -/
def tileSum (z : LossAlgebra.Z) (i : Fin 8192) (J : Fin 8) : EReal :=
  ∑ q : Fin 1024, Ideal.exp ((∑ k : Fin 128, z (ix2 i k) * z (ix2 (tileIdx J q) k)) * Ideal.ofBits .f32 0x40000000#32)

/-- The update at point t, row p: what was held plus the point's share. -/
theorem update_apply (c : Dev nD) (t : Fin cfg0.N) (xs : Vec Ideal S1024x1 .f32) (p : Fin 1024) :
    k0_pay2 (F := Ideal) (iblk m c 0 t) (iblk m c 1 t) xs (ix2 p (0 : Fin 1))
      = xs (ix2 p (0 : Fin 1)) + tileSum (zOf m c) (tileIdx (rowTile t) p) (colTile t) := by
  refine (Tile.pay2_apply (iblk m c 0 t) (iblk m c 1 t) xs p).trans ?_
  refine congrArg (xs (ix2 p (0 : Fin 1)) + ·) ?_
  refine Finset.sum_congr rfl fun q _ => congrArg Ideal.exp (congrArg (· * Ideal.ofBits .f32 0x40000000#32) ?_)
  exact Finset.sum_congr rfl fun k _ => by rw [iblk0_apply, iblk1_apply]

theorem accA_apply (c : Dev nD) (t : Fin cfg0.N) (h0 : t.val % 8 = 0) (h1 : ¬t.val % 8 = 7) (p : Fin 1024) :
    accA m c t h0 h1 (ix2 p (0 : Fin 1)) = 0 + tileSum (zOf m c) (tileIdx (rowTile t) p) (colTile t) := by
  unfold accA
  rw [sout0_A_0_eq]
  refine (update_apply m c t _ p).trans ?_
  rw [Tile.pay1_apply]

theorem accB_apply (c : Dev nD) (t : Fin cfg0.N) (h0 : ¬t.val % 8 = 0) (h1 : ¬t.val % 8 = 7) (xs : Vec Ideal S1024x1 .f32) (p : Fin 1024) :
    accB m c t h0 h1 xs (ix2 p (0 : Fin 1)) = xs (ix2 p (0 : Fin 1)) + tileSum (zOf m c) (tileIdx (rowTile t) p) (colTile t) := by
  unfold accB
  rw [sout0_B_0_eq]
  exact update_apply m c t xs p

theorem accC_apply (c : Dev nD) (t : Fin cfg0.N) (h0 : ¬t.val % 8 = 0) (h1 : t.val % 8 = 7) (xs : Vec Ideal S1024x1 .f32) (p : Fin 1024) :
    accC m c t h0 h1 xs (ix2 p (0 : Fin 1)) = xs (ix2 p (0 : Fin 1)) + tileSum (zOf m c) (tileIdx (rowTile t) p) (colTile t) := by
  unfold accC
  rw [sout0_C_0_eq]
  exact update_apply m c t xs p

theorem outC_eq_accC (c : Dev nD) (t : Fin cfg0.N) (h0 : ¬t.val % 8 = 0) (h1 : t.val % 8 = 7) (xs : Vec Ideal S1024x1 .f32) :
    outC m c t h0 h1 xs = accC m c t h0 h1 xs := by
  unfold outC accC
  rw [out0_C_2_eq, sout0_C_0_eq]

/-- A column tile's share with the tile numbered by any natural number (read modulo 8). -/
def tileSumN (z : LossAlgebra.Z) (i : Fin 8192) (J : ℕ) : EReal := tileSum z i ⟨J % 8, Nat.mod_lt _ (by decide)⟩

theorem lt64 (I : Fin 8) (J : ℕ) (hJ : J < 8) : 8 * I.val + J < cfg0.N :=
  lt_of_lt_of_eq (by have := I.isLt; omega : 8 * I.val + J < 64) N_0.symm

/-- The accumulator's row p after a point, by the point's column tile. -/
theorem snd_A (c : Dev nD) (t : Fin cfg0.N) (h0 : t.val % 8 = 0) (h1 : ¬t.val % 8 = 7) (p : Fin 1024) :
    (outsAt0 m c t.val t.isLt).2 (ix2 p (0 : Fin 1)) = 0 + tileSum (zOf m c) (tileIdx (rowTile t) p) (colTile t) := by
  have e := congrArg Prod.snd (outsAt0_A m c t h0 h1)
  dsimp only at e
  rw [e]
  exact accA_apply m c t h0 h1 p

theorem snd_B (c : Dev nD) (t : Fin cfg0.N) (h0 : ¬t.val % 8 = 0) (h1 : ¬t.val % 8 = 7) (p : Fin 1024) :
    (outsAt0 m c t.val t.isLt).2 (ix2 p (0 : Fin 1))
      = (outsAt0 m c (t.val - 1) (Nat.lt_of_le_of_lt (Nat.sub_le _ _) t.isLt)).2 (ix2 p (0 : Fin 1)) + tileSum (zOf m c) (tileIdx (rowTile t) p) (colTile t) := by
  have e := congrArg Prod.snd (outsAt0_B m c t h0 h1)
  dsimp only at e
  rw [e]
  exact accB_apply m c t h0 h1 _ p

theorem snd_C (c : Dev nD) (t : Fin cfg0.N) (h0 : ¬t.val % 8 = 0) (h1 : t.val % 8 = 7) (p : Fin 1024) :
    (outsAt0 m c t.val t.isLt).2 (ix2 p (0 : Fin 1))
      = (outsAt0 m c (t.val - 1) (Nat.lt_of_le_of_lt (Nat.sub_le _ _) t.isLt)).2 (ix2 p (0 : Fin 1)) + tileSum (zOf m c) (tileIdx (rowTile t) p) (colTile t) := by
  have e := congrArg Prod.snd (outsAt0_C m c t h0 h1)
  dsimp only at e
  rw [e]
  exact accC_apply m c t h0 h1 _ p

/-- Where the column tile is the last, the output window holds the accumulator's value. -/
theorem fst_C (c : Dev nD) (t : Fin cfg0.N) (h0 : ¬t.val % 8 = 0) (h1 : t.val % 8 = 7) :
    (outsAt0 m c t.val t.isLt).1 = (outsAt0 m c t.val t.isLt).2 := by
  have e1 := congrArg Prod.fst (outsAt0_C m c t h0 h1)
  have e2 := congrArg Prod.snd (outsAt0_C m c t h0 h1)
  dsimp only at e1 e2
  rw [e1, e2]
  exact outC_eq_accC m c t h0 h1 _

attribute [local irreducible] outsAt0

/-- THE ACCUMULATION: after point 8·I + J the accumulator's row p holds zero plus the shares of the column tiles 0 … J. -/
theorem acc_eq (c : Dev nD) (I : Fin 8) (J : ℕ) : ∀ (hJ : J < 8) (p : Fin 1024),
    (outsAt0 m c (8 * I.val + J) (lt64 I J hJ)).2 (ix2 p (0 : Fin 1))
      = 0 + ∑ J' ∈ Finset.range (J + 1), tileSumN (zOf m c) (tileIdx I p) J' := by
  have hI := I.isLt
  induction J with
  | zero =>
    intro hJ p
    have h0 : (⟨8 * I.val + 0, lt64 I 0 hJ⟩ : Fin cfg0.N).val % 8 = 0 := by show (8 * I.val + 0) % 8 = 0; omega
    have h1 : ¬(⟨8 * I.val + 0, lt64 I 0 hJ⟩ : Fin cfg0.N).val % 8 = 7 := by show ¬(8 * I.val + 0) % 8 = 7; omega
    refine (snd_A m c ⟨8 * I.val + 0, lt64 I 0 hJ⟩ h0 h1 p).trans ?_
    rw [Finset.sum_range_one]
    have eR : rowTile ⟨8 * I.val + 0, lt64 I 0 hJ⟩ = I := Fin.ext (by show (8 * I.val + 0) / 8 = I.val; omega)
    have eC : colTile ⟨8 * I.val + 0, lt64 I 0 hJ⟩ = ⟨0 % 8, Nat.mod_lt _ (by decide)⟩ := Fin.ext (by show (8 * I.val + 0) % 8 = 0 % 8; omega)
    rw [eR, eC]; rfl
  | succ J ih =>
    intro hJ p
    have ih' := ih (by omega) p
    have h0 : ¬(⟨8 * I.val + (J + 1), lt64 I (J + 1) hJ⟩ : Fin cfg0.N).val % 8 = 0 := by show ¬(8 * I.val + (J + 1)) % 8 = 0; omega
    have eR : rowTile ⟨8 * I.val + (J + 1), lt64 I (J + 1) hJ⟩ = I := Fin.ext (by show (8 * I.val + (J + 1)) / 8 = I.val; omega)
    have eC : colTile ⟨8 * I.val + (J + 1), lt64 I (J + 1) hJ⟩ = ⟨(J + 1) % 8, Nat.mod_lt _ (by decide)⟩ :=
      Fin.ext (by show (8 * I.val + (J + 1)) % 8 = (J + 1) % 8; omega)
    rw [Finset.sum_range_succ _ (J + 1), ← add_assoc (0 : EReal), ← ih']
    by_cases h1 : (⟨8 * I.val + (J + 1), lt64 I (J + 1) hJ⟩ : Fin cfg0.N).val % 8 = 7
    · refine (snd_C m c ⟨8 * I.val + (J + 1), lt64 I (J + 1) hJ⟩ h0 h1 p).trans ?_
      rw [eR, eC]; rfl
    · refine (snd_B m c ⟨8 * I.val + (J + 1), lt64 I (J + 1) hJ⟩ h0 h1 p).trans ?_
      rw [eR, eC]; rfl

/-- The row sums: at row i, zero plus the sum over all 8192 columns of the exponentiated similarity. -/
def G (c : Dev nD) : main_v5.ty.Contents (Elt Ideal) := fun i => 0 + ∑ j : Fin 8192, expSim (zOf m c) (i 0) j

/-- After the last column tile of row tile I, row p of the accumulator is the whole row's sum. -/
theorem acc_last (c : Dev nD) (I : Fin 8) (p : Fin 1024) :
    (outsAt0 m c (8 * I.val + 7) (lt64 I 7 (by decide))).2 (ix2 p (0 : Fin 1)) = 0 + ∑ j : Fin 8192, expSim (zOf m c) (tileIdx I p) j := by
  rw [acc_eq m c I 7 (by decide) p, zero_add, Finset.sum_range (fun J' => tileSumN (zOf m c) (tileIdx I p) J'), ← rowSum_tiles]
  refine Finset.sum_congr rfl fun T _ => ?_
  unfold tileSumN tileSum
  have e : (⟨T.val % 8, Nat.mod_lt _ (by decide)⟩ : Fin 8) = T := Fin.ext (Nat.mod_eq_of_lt T.isLt)
  rw [e]

/-- The same at any point whose column tile is the last. -/
theorem acc_last' (c : Dev nD) (t : Fin cfg0.N) (h7 : t.val % 8 = 7) (p : Fin 1024) :
    (outsAt0 m c t.val t.isLt).2 (ix2 p (0 : Fin 1)) = 0 + ∑ j : Fin 8192, expSim (zOf m c) (tileIdx (rowTile t) p) j := by
  have hN : t.val < 64 := lt_of_lt_of_eq t.isLt N_0
  have hv : 8 * (rowTile t).val + 7 = t.val := by show 8 * (t.val / 8) + 7 = t.val; omega
  have tr : ∀ (n : ℕ) (hn : n < cfg0.N), n = t.val → outsAt0 m c n hn = outsAt0 m c t.val t.isLt := by
    intro n hn hnt; subst hnt; rfl
  rw [← tr _ (lt64 (rowTile t) 7 (by decide)) hv]
  exact acc_last m c (rowTile t) p

/-- An index of the row sums is in point t's block iff each coordinate is in the block's range on its axis. -/
theorem mem_blk2 (t : Fin cfg0.N) (i : S8192x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v5).slice (win0_2.rect t)).set ↔ _
  rw [View.set_slice_whole, Rect.mem_set_unit]
  exact Iff.rfl

/-- WHAT A WRITE-BACK WRITES: the block of the row sums. -/
theorem flushed2_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  have h0 : ¬t.val % 8 = 0 := by omega
  show (cfg0.win 2).cut (grid0.coords t) ((dats m 0 c).after 2 t) = _
  rw [after0_2, fst_C m c t h0 h7]
  obtain ⟨-, -, -, -, e0, e1⟩ := idx_facts t
  funext y
  obtain ⟨p, q, rfl⟩ : ∃ (p : Fin 1024) (q : Fin 1), y = ix2 p q := ⟨y 0, y 1, eq_ix2 y⟩
  obtain rfl : q = 0 := Subsingleton.elim _ _
  show (outsAt0 m c t.val t.isLt).2 (ix2 p (0 : Fin 1))
    = 0 + ∑ j : Fin 8192, expSim (zOf m c) ((((cfg0.win 2).blk t).view.emb (ix2 p (0 : Fin 1))) 0) j
  have ei : (((cfg0.win 2).blk t).view.emb (ix2 p (0 : Fin 1))) 0 = tileIdx (rowTile t) p :=
    Fin.ext (by show win0_2.index t (0 : Fin 2) * 1024 + 1 * p.val = 1024 * (t.val / 8) + p.val; omega)
  rw [ei]
  exact acc_last' m c t h7 p

/-- The eight write-backs tile the row sums. -/
theorem cover2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  let t : Fin cfg0.N := ⟨8 * ((i 0).val / 1024) + 7, lt_of_lt_of_eq (by omega : 8 * ((i 0).val / 1024) + 7 < 64) N_0.symm⟩
  have htv : t.val = 8 * ((i 0).val / 1024) + 7 := rfl
  refine ⟨t, (flush0_2 t).mpr (by rw [htv]; omega), ?_⟩
  rw [mem_blk2]
  obtain ⟨-, -, -, -, e0, e1⟩ := idx_facts t
  intro a
  match a with
  | ⟨0, _⟩ => show win0_2.index t (0 : Fin 2) * 1024 ≤ (i 0).val ∧ (i 0).val < win0_2.index t (0 : Fin 2) * 1024 + 1024; rw [e0, htv]; omega
  | ⟨1, _⟩ => show win0_2.index t (1 : Fin 2) * 1 ≤ (i 1).val ∧ (i 1).val < win0_2.index t (1 : Fin 2) * 1 + 1; rw [e1]; omega

/-- THE ROW SUMS the region leaves. -/
theorem rowSums_eq (c : Dev nD) : rowSums m c = G m c :=
  (dats m 0 c).arrAt_eq_of_cover 2 (G m c) (fun t hf => flushed2_eq m c t hf) cover2

end Cert.KernelIdeal.Hand

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.LibHostRead.lean ====
/-
  Host reductions and a host product read at an index, on the extended reals. A host sum along the second axis of an
  [r, n] array, at row p: the initial value plus the sum over the n entries of row p. A host sum of a whole vector: the
  initial value plus the sum of its entries. A host dot_general of an [M, K] array with an [N, K] array, both contracted on
  their last axis, at (p, q): the sum over k of x[p, k] · w[q, k]. General in the extents.
-/
import Idealize.ShloMosaic.PureOps.Ideal.Laws
import Idealize.ShloMosaic.Lib.ValueIdx
import proofs.«110751_j72619307041593_1_alg».proof.Proof.LibMatmulNT
import proofs.«110751_j72619307041593_1_alg».proof.Proof.LibLaneReduce

noncomputable section

open scoped BigOperators

namespace LibHostRead

open Idealize.ShloMosaic Idealize.ShloMosaic.ValueIdx

/-- A host sum along the second axis, read at row p. -/
theorem hostRowSum_apply {r n : Nat} {u : Shape} (x : FVec Ideal ⟨2, ![r, n]⟩ .f32) (init : u.Idx → Ideal .f32)
    (h' : (⟨2, ![r, n]⟩ : Shape).ReducesTo [1] ⟨1, ![r]⟩) (hu : 0 < u.numel)
    (h : (⟨2, ![r, n]⟩ : Shape).Reduces [1] ⟨1, ![r]⟩) (p : Fin r) :
    Host.reduceAdd x init h' hu (ix1 p) = init (Shape.Idx.first hu) + ∑ k : Fin n, x (ix2 p k) := by
  show Ideal.hostReduceAdd h' x (init (Shape.Idx.first hu)) (ix1 p) = _
  rw [Ideal.hostReduceAdd_single h' h x _ (ix1 p)]
  exact congrArg (init (Shape.Idx.first hu) + ·) (Finset.sum_congr rfl fun k _ => congrArg x (LibLaneReduce.lift_lanes h p k))

/-- An index of a vector is its one coordinate. -/
def idxEquiv1 {n : Nat} : (⟨1, ![n]⟩ : Shape).Idx ≃ Fin n where
  toFun i := i 0
  invFun := ix1
  left_inv i := (eq_ix1 i).symm
  right_inv _ := rfl

theorem sum_idx1 {M : Type*} [AddCommMonoid M] {n : Nat} (f : (⟨1, ![n]⟩ : Shape).Idx → M) : ∑ i, f i = ∑ k : Fin n, f (ix1 k) :=
  (Equiv.sum_comp (idxEquiv1 (n := n)).symm f).symm

/-- A host sum of a whole vector. -/
theorem hostTotalSum_apply {n : Nat} {u : Shape} (x : FVec Ideal ⟨1, ![n]⟩ .f32) (init : u.Idx → Ideal .f32)
    (h' : (⟨1, ![n]⟩ : Shape).ReducesTo [0] ⟨0, ![]⟩) (hu : 0 < u.numel) (j : (⟨0, ![]⟩ : Shape).Idx) :
    Host.reduceAdd x init h' hu j = init (Shape.Idx.first hu) + ∑ k : Fin n, x (ix1 k) := by
  show Ideal.hostReduceAdd h' x (init (Shape.Idx.first hu)) j = _
  rw [Ideal.hostReduceAdd_total h' (fun b => b.elim0) x _ j, sum_idx1]

/-- A host product of two arrays contracted on their last axes, read at (p, q). -/
theorem dotGeneralNT_apply {M K N : Nat} {φ₁ φ₂ : FTy} (prec : Option ContractPrecision)
    (x : FVec Ideal ⟨2, ![M, K]⟩ φ₁) (w : FVec Ideal ⟨2, ![N, K]⟩ φ₂) (p : Fin M) (q : Fin N) :
    Host.dotGeneral (DotDims.transposedRhs M K N) prec x w (ix2 p q) = ∑ k : Fin K, x (ix2 p k) * w (ix2 q k) := by
  show FloatOps.dotGeneral (DotDims.transposedRhs M K N) prec .single x w (ix2 p q) = _
  rw [Ideal.dotGeneral_apply, ← Equiv.sum_comp (contrEquiv1 (DotDims.transposedRhs M K N) K rfl rfl).symm]
  refine Finset.sum_congr rfl fun k _ => ?_
  rw [LibMatmulNT.lhsIdx_eq, LibMatmulNT.rhsIdx_eq]

end LibHostRead

end
-- ==== Proof.LibReshapeRead.lean ====
import Idealize.ShloMosaic.Lib.ValueIdx
import Idealize.ShloMosaic.Lib.ValueLayout
import Idealize.ShloMosaic.Lib.Pipeline.Value

/-! # Two reshapes read at an index

A reshape keeps the row-major position of every element. A column `[m, 1]` and the vector `[m]` it is reshaped to
hold element `p` at positions `p * 1 + 0` and `p`; a vector `[n]` and the one-row array `[1, n]` it is reshaped to hold
element `k` at positions `k` and `0 * n + k`. -/

namespace Cert.DistSeams

open Idealize.ShloMosaic Idealize.ShloMosaic.ValueIdx

/-- A column `[m, 1]` viewed as a vector of length `m` reads, at `p`, the column at `(p, 0)`. -/
theorem col_to_vec_apply {α : Type} {m : Nat} (x : (⟨2, ![m, 1]⟩ : Shape).Idx → α)
    (h : (⟨2, ![m, 1]⟩ : Shape).ShapeCasts ⟨1, ![m]⟩) (p : Fin m) :
    shapeCast ⟨1, ![m]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A vector of length `n` viewed as the one row of a `[1, n]` array reads, at `(u, k)`, the vector at `k`, whatever the
    unit coordinate `u`. -/
theorem vec_to_row_apply {α : Type} {n : Nat} (x : (⟨1, ![n]⟩ : Shape).Idx → α)
    (h : (⟨1, ![n]⟩ : Shape).ShapeCasts ⟨2, ![1, n]⟩) (u : Fin 1) (k : Fin n) :
    shapeCast ⟨2, ![1, n]⟩ x h (ix2 u k) = x (ix1 k) :=
  shapeCast_a_1a_apply x h u k

end Cert.DistSeams
-- ==== Proof.LibSeqChain.lean ====
/-
  Two facts about straight lines of host operations.

  `seq ops` runs the operations of a list one after the other, and `after ops V` is what the buffers hold afterwards, from
  contents `V`. Running `l₁ ++ l₂` is running `l₁` and then `l₂`, so
  * `after (l₁ ++ l₂) V = after l₂ (after l₁ V)` (`after_append`), and
  * a chain of straight lines is the straight line of their concatenation,
    `chain [seq l₁, …, seq lₙ] = seq (l₁ ++ … ++ lₙ)` (`chain_map_seq`).
  With the second, a host program that calls small outlined functions can be stated as a chain with one item per call
  and one per stretch between calls, each call's body rewritten to the straight line of its own operations, and the
  whole then read as ONE straight line; with the first, that line's effect is read stretch by stretch.
-/
import Idealize.ShloMosaic.Lib.StableHlo.Run
import Idealize.ShloMosaic.Lib.Pipeline.Regions

namespace Idealize.ShloMosaic.StableHlo

open Idealize.SL.Sem

/-- What the buffers hold after `l₁ ++ l₂` is what they hold after `l₂`, run from what they hold after `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A chain of straight lines is the straight line of their concatenation. -/
theorem chain_map_seq {nD : Nat} {τ : Topo} {sig : RefSig} {Val : EltTy → Type} {Λ : Labels} (ls : List (List (HloOp τ sig Val))) :
    Pipeline.chain (ls.map (seq (nD := nD) (Λ := Λ))) = seq ls.flatten := by
  induction ls with
  | nil => rfl
  | cons l ls ih => rw [List.map_cons, Pipeline.chain_cons, ih, List.flatten_cons, seq_append]

end Idealize.ShloMosaic.StableHlo
-- ==== Proof.KernelIdealLoss.lean ====
/-
  The loss the kernel program computes, at the extended reals: from the row sums the region leaves and the normalized
  array, the host lines after the region form each row's denominator (the row sum less the diagonal entry, got from the
  row's sum of squares) and each row's partner entry (got, for the lower 4096 rows, from the pairing with the row 4096
  below, and repeated for the upper rows), and sum minus the logarithm of the quotient.
-/
import proofs.«110751_j72619307041593_1_alg».proof.Proof.KernelIdealValue
import proofs.«110751_j72619307041593_1_alg».proof.Proof.LibHostRead
import proofs.«110751_j72619307041593_1_alg».proof.Proof.LibReshapeRead
import proofs.«110751_j72619307041593_1_alg».proof.Proof.LibSeqChain

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open LossAlgebra

/-- The lines after the region up to the two exponentials. -/
abbrev tailA {F : FTy → Type} [FloatOps F] : List (HloOp τ sig (Elt F)) :=
  [ StableHlo.reshape main_v5 main_v6 rfl shapeCasts_S8192x1_S8192,
    StableHlo.binary main_v4 main_v4 main_v7 (mulf : (⟨S8192x128, .f32⟩ : BufTy).Contents (Elt F) → (⟨S8192x128, .f32⟩ : BufTy).Contents (Elt F) → (⟨S8192x128, .f32⟩ : BufTy).Contents (Elt F)),
    StableHlo.nullary main_cst_0 (constant S_ .f32 0x00000000#32),
    StableHlo.binary main_v7 main_cst_0 main_v8 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    StableHlo.nullary main_cst_1 (constant S_ .f32 0x3F000000#32),
    StableHlo.unary main_cst_1 main_v9 (broadcastInDim S8192 ![] bcast_S_S8192 : (⟨S_, .f32⟩ : BufTy).Contents (Elt F) → (⟨S8192, .f32⟩ : BufTy).Contents (Elt F)),
    StableHlo.binary main_v8 main_v9 main_v10 (Host.divf : (⟨S8192, .f32⟩ : BufTy).Contents (Elt F) → (⟨S8192, .f32⟩ : BufTy).Contents (Elt F) → (⟨S8192, .f32⟩ : BufTy).Contents (Elt F)),
    StableHlo.unary main_v10 main_v11 (Host.exp : (⟨S8192, .f32⟩ : BufTy).Contents (Elt F) → (⟨S8192, .f32⟩ : BufTy).Contents (Elt F)),
    StableHlo.binary main_v6 main_v11 main_v12 (subf : (⟨S8192, .f32⟩ : BufTy).Contents (Elt F) → (⟨S8192, .f32⟩ : BufTy).Contents (Elt F) → (⟨S8192, .f32⟩ : BufTy).Contents (Elt F)),
    StableHlo.unary main_v4 main_v13 ((extractStridedSlice S4096x128 ![0, 0] · slices_S8192x128_S4096x128_0_0) : (⟨S8192x128, .f32⟩ : BufTy).Contents (Elt F) → (⟨S4096x128, .f32⟩ : BufTy).Contents (Elt F)),
    StableHlo.unary main_v4 main_v14 ((extractStridedSlice S4096x128 ![4096, 0] · slices_S8192x128_S4096x128_4096_0) : (⟨S8192x128, .f32⟩ : BufTy).Contents (Elt F) → (⟨S4096x128, .f32⟩ : BufTy).Contents (Elt F)),
    StableHlo.binary main_v13 main_v14 main_v15 (mulf : (⟨S4096x128, .f32⟩ : BufTy).Contents (Elt F) → (⟨S4096x128, .f32⟩ : BufTy).Contents (Elt F) → (⟨S4096x128, .f32⟩ : BufTy).Contents (Elt F)),
    StableHlo.nullary main_cst_2 (constant S_ .f32 0x00000000#32),
    StableHlo.binary main_v15 main_cst_2 main_v16 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    StableHlo.nullary main_cst_3 (constant S_ .f32 0x3F000000#32),
    StableHlo.unary main_cst_3 main_v17 (broadcastInDim S4096 ![] bcast_S_S4096 : (⟨S_, .f32⟩ : BufTy).Contents (Elt F) → (⟨S4096, .f32⟩ : BufTy).Contents (Elt F)),
    StableHlo.binary main_v16 main_v17 main_v18 (Host.divf : (⟨S4096, .f32⟩ : BufTy).Contents (Elt F) → (⟨S4096, .f32⟩ : BufTy).Contents (Elt F) → (⟨S4096, .f32⟩ : BufTy).Contents (Elt F)),
    StableHlo.unary main_v18 main_v19 (Host.exp : (⟨S4096, .f32⟩ : BufTy).Contents (Elt F) → (⟨S4096, .f32⟩ : BufTy).Contents (Elt F)) ]
/-- The lines from the repetition of the partner entries to the sum. -/
abbrev tailB {F : FTy → Type} [FloatOps F] : List (HloOp τ sig (Elt F)) :=
  [ StableHlo.binary main_v19 main_v19 main_v20 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    StableHlo.unary main_v12 main_v21 (Host.sqrt : (⟨S8192, .f32⟩ : BufTy).Contents (Elt F) → (⟨S8192, .f32⟩ : BufTy).Contents (Elt F)),
    StableHlo.binary main_v20 main_v21 main_v22 (Host.divf : (⟨S8192, .f32⟩ : BufTy).Contents (Elt F) → (⟨S8192, .f32⟩ : BufTy).Contents (Elt F) → (⟨S8192, .f32⟩ : BufTy).Contents (Elt F)),
    StableHlo.unary main_v22 main_v23 (Host.log : (⟨S8192, .f32⟩ : BufTy).Contents (Elt F) → (⟨S8192, .f32⟩ : BufTy).Contents (Elt F)),
    StableHlo.unary main_v23 main_v24 (Host.negf : (⟨S8192, .f32⟩ : BufTy).Contents (Elt F) → (⟨S8192, .f32⟩ : BufTy).Contents (Elt F)),
    StableHlo.nullary main_cst_4 (constant S_ .f32 0x00000000#32),
    StableHlo.binary main_v24 main_cst_4 main_v25 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

theorem hostOps1_split {F : FTy → Type} [FloatOps F] : (hostOps1 : List (HloOp τ sig (Elt F))) = tailA ++ tailB := rfl

/-- Each row's denominator: the row sum less the exponential of twice the row's sum of squares. -/
theorem tailA_v12 (W : Valuation τ sig (Elt Ideal)) (z : LossAlgebra.Z) (hz : W (Proc.devRef .tc main_v4) = z)
    (rs : (⟨2, ![8192, 1]⟩ : Shape).Idx → EReal) (hr : W (Proc.devRef .tc main_v5) = rs) (i : Fin 8192) :
    StableHlo.after tailA W (Proc.devRef .tc main_v12) (ix1 i)
      = rs (ix2 i (0 : Fin 1))
        - Ideal.exp (Ideal.div (0 + ∑ k : Fin 128, z (ix2 i k) * z (ix2 i k)) (Ideal.ofBits .f32 0x3F000000#32)) := by
  unfold tailA
  after_results_simp
  rw [hz, hr]
  show (_ : EReal) - Ideal.exp (Ideal.div _ _) = _
  refine congrArg₂ (fun a b : EReal => a - Ideal.exp (Ideal.div b (Ideal.ofBits .f32 0x3F000000#32))) ?_ ?_
  · exact Cert.DistSeams.col_to_vec_apply rs _ i
  · refine (LibHostRead.hostRowSum_apply _ _ _ _ (by decide) i).trans ?_
    exact congrArg₂ (· + ·) Ideal.ofBits_zero_f32 rfl

/-- Each lower row's partner entry: the exponential of twice its pairing with the row 4096 below. -/
theorem tailA_v19 (W : Valuation τ sig (Elt Ideal)) (z : LossAlgebra.Z) (hz : W (Proc.devRef .tc main_v4) = z) (a : Fin 4096) :
    StableHlo.after tailA W (Proc.devRef .tc main_v19) (ix1 a)
      = Ideal.exp (Ideal.div (0 + ∑ k : Fin 128, z (ix2 (lo a) k) * z (ix2 (hi a) k)) (Ideal.ofBits .f32 0x3F000000#32)) := by
  unfold tailA
  after_results_simp
  rw [hz]
  show Ideal.exp (Ideal.div _ _) = _
  refine congrArg (fun b : EReal => Ideal.exp (Ideal.div b (Ideal.ofBits .f32 0x3F000000#32))) ?_
  refine (LibHostRead.hostRowSum_apply _ _ _ _ (by decide) a).trans ?_
  refine congrArg₂ (· + ·) Ideal.ofBits_zero_f32 (Finset.sum_congr rfl fun k _ => ?_)
  show (_ : EReal) * _ = _
  refine congrArg₂ (· * ·) ?_ ?_
  · exact extractStridedSlice_apply _ z _ _ (ix2 (lo a) k) fun ax => by
      match ax with
      | ⟨0, _⟩ => show a.val = 0 + a.val; omega
      | ⟨1, _⟩ => show k.val = 0 + k.val; omega
  · exact extractStridedSlice_apply _ z _ _ (ix2 (hi a) k) fun ax => by
      match ax with
      | ⟨0, _⟩ => rfl
      | ⟨1, _⟩ => show k.val = 0 + k.val; omega

/-- The partner entries repeated: row i of the concatenation is the lower row's entry. -/
theorem concat_apply (x : (⟨1, ![4096]⟩ : Shape).Idx → EReal) (h : Shape.Concatenates [(⟨1, ![4096]⟩ : Shape), ⟨1, ![4096]⟩] ⟨1, ![8192]⟩ 0) (i : Fin 8192) :
    concatenate ⟨1, ![8192]⟩ 0 [⟨⟨1, ![4096]⟩, x⟩, ⟨⟨1, ![4096]⟩, x⟩] h (ix1 i) = x (ix1 (lower i)) := by
  by_cases hi : i.val < 4096
  · exact concatenate_pair_apply_left 0 x x h (ix1 i) rfl (ix1 (lower i)) fun b => by
      match b with
      | ⟨0, _⟩ => show i.val % 4096 = i.val; exact Nat.mod_eq_of_lt hi
  · have hi8 := i.isLt
    exact concatenate_pair_apply_right 0 x x h (ix1 i) rfl rfl (ix1 (lower i)) (fun b hb => by
      match b with
      | ⟨0, _⟩ => exact absurd rfl hb) (by show i.val % 4096 + 4096 = i.val; omega)

/-- The loss from the denominators and the lower rows' partner entries. -/
theorem tailB_v25 (W : Valuation τ sig (Elt Ideal)) (P : (⟨1, ![4096]⟩ : Shape).Idx → EReal) (hP : W (Proc.devRef .tc main_v19) = P)
    (D : (⟨1, ![8192]⟩ : Shape).Idx → EReal) (hD : W (Proc.devRef .tc main_v12) = D) :
    StableHlo.after tailB W (Proc.devRef .tc main_v25)
      = fun _ => 0 + ∑ i : Fin 8192, -(Ideal.log (Ideal.div (P (ix1 (lower i))) (Ideal.sqrt (D (ix1 i))))) := by
  unfold tailB
  after_results_simp
  rw [hP, hD]
  funext j
  refine (LibHostRead.hostTotalSum_apply _ _ _ _ j).trans ?_
  refine congrArg₂ (· + ·) Ideal.ofBits_zero_f32 (Finset.sum_congr rfl fun i _ => ?_)
  show -(Ideal.log (Ideal.div _ (Ideal.sqrt (D (ix1 i))))) = _
  rw [concat_apply P _ i]

/-- THE KERNEL PROGRAM'S RESULT: the loss of the normalized array. -/
theorem kernel_loss (m : (ℓ : Loc nD τ sig) → Buf (Elt Ideal) ℓ) (c : Dev nD) :
    StableHlo.after (List.flatten [hostOps1]) (Ex m c) (Proc.devRef .tc main_v25) = fun _ => loss (zOf m c) := by
  have hz : Ex m c (Proc.devRef .tc main_v4) = zOf m c := Ex_ne m c main_v4 (by decide)
  have hr : Ex m c (Proc.devRef .tc main_v5) = G m c := (Ex_v5 m c).trans (rowSums_eq m c)
  rw [List.flatten_cons, List.flatten_nil, List.append_nil, hostOps1_split, StableHlo.after_append,
    tailB_v25 _ _ rfl _ rfl]
  funext _
  unfold loss
  refine congrArg (0 + ·) (Finset.sum_congr rfl fun i _ => ?_)
  rw [tailA_v19 (Ex m c) (zOf m c) hz (lower i), tailA_v12 (Ex m c) (zOf m c) hz (G m c) hr i, partner_eq, diag_eq]
  rfl

end Cert.KernelIdeal.Hand

end
-- ==== Proof.KernelIdealFinal.lean ====
/-
  The kernel program's run with its result named: every weakly fair execution terminates with the loss of the normalized
  argument array in the result buffer and the argument array unchanged. The normalized array is the argument divided,
  row by row, by the row's norm clamped from below.
-/
import proofs.«110751_j72619307041593_1_alg».proof.Proof.KernelIdealLoss

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open LossAlgebra

/-- Rows divided by their norms, the norms clamped from below. -/
def normalize (a : (⟨2, ![8192, 128]⟩ : Shape).Idx → EReal) : LossAlgebra.Z :=
  Host.divf (F := Ideal) (φ := .f32) a (broadcastInDim S8192x128 ![0, 1] bcast_S8192x1_S8192x128_0_1
    (maximumf (F := Ideal) (φ := .f32) (Host.sqrt (F := Ideal) (φ := .f32) (broadcastInDim S8192x1 ![0] bcast_S8192_S8192x1_0
        (Host.reduceAdd (F := Ideal) (φ := .f32) (mulf (F := Ideal) (φ := .f32) a a) (constant (F := Ideal) S_ .f32 0x00000000#32) reducesTo_S8192x128_S8192_d1 h_S_)))
      (broadcastInDim S8192x1 ![] bcast_S_S8192x1 (constant (F := Ideal) S_ .f32 0x358637BD#32))))

variable (m : (ℓ : Loc nD τ sig) → Buf (Elt Ideal) ℓ) (ρ : Dev nD → PrngReg)

/-- What the region finds in the normalized array's buffer. -/
theorem zOf_eq (c : Dev nD) : zOf m c = normalize (m ((c.tc : Thread nD τ).loc main_arg0)) := by
  show V0 m c (Proc.devRef .tc main_v4) = _
  unfold V0
  simp only [hostOps0, hostOps0_1, List.flatten_cons, List.flatten_nil, List.append_nil, List.cons_append, List.nil_append]
  after_results
  rfl

/-- THE RUN, with the result named. -/
theorem value_run : θ_run defs (onTc (τ := τ) (main (F := Ideal))) ⟨m, fun _ => 0, ρ⟩ (fun r => ∀ c : Dev nD,
      r.2.mem ((c.tc : Thread nD τ).loc main_v25) = (fun _ => loss (normalize (m ((c.tc : Thread nD τ).loc main_arg0))))
      ∧ r.2.mem ((c.tc : Thread nD τ).loc main_arg0) = m ((c.tc : Thread nD τ).loc main_arg0)) :=
  (θ_run defs _ _).mono (fun _ h c =>
    ⟨((h c).2 main_v25 (Pipeline.mem_restRefs_of main_v25 rfl (by decide))).trans ((kernel_loss m c).trans (by rw [zOf_eq])),
     ((h c).2 main_arg0 (Pipeline.mem_restRefs_of main_arg0 rfl (by decide))).trans
      ((tail_arg0 c (Ex m c)).trans ((Ex_ne m c main_arg0 (by decide)).trans (V0_arg0 m c)))⟩) (run_main m ρ)

end Cert.KernelIdeal.Hand

end
-- ==== Proof.ReferenceOps.lean ====
/-
  The reference program as ONE straight line of host operations. Its @main calls three small outlined functions (the
  row norm; the integer remainder; the scalar select inside the remainder): each call's body is the straight line of its
  own operations over that call's buffers, and @main is the concatenation of the seven stretches. Every weakly fair
  execution then terminates with each buffer at the fold of the operations over the launch contents.
-/
import proofs.«110751_j72619307041593_1_alg».proof.ReferenceIdeal
import proofs.«110751_j72619307041593_1_alg».proof.Proof.Gen.ReferenceIdeal
import proofs.«110751_j72619307041593_1_alg».proof.Proof.LibSeqChain
import Idealize.ShloMosaic.Lib.StableHlo.Run
import Idealize.ShloMosaic.Lib.Pipeline.Regions

set_option maxRecDepth 16384

noncomputable section

namespace Cert.ReferenceIdeal.RefRun

open Cert.ReferenceIdeal
open Idealize.ShloMosaic Idealize.ShloMosaic.TcCoe Idealize.SL.Sem
open Facts₀ Facts

variable {F : FTy → Type} [FloatOps F]
variable [hF : Cert.ReferenceIdeal.Facts]

/-- The row norm: squares, row sums, kept as a column, square root. -/
abbrev normOps : List (HloOp τ sig (Elt F)) :=
  [ StableHlo.TRef.binary (.of main_arg0 : StableHlo.TRef sig ⟨S8192x128, .f32⟩) (.of main_arg0 : StableHlo.TRef sig ⟨S8192x128, .f32⟩) main_call0.v0 mulf,
    StableHlo.TRef.nullary main_call0.cst (constant S_ .f32 0x00000000#32),
    StableHlo.TRef.binary main_call0.v0 main_call0.cst main_call0.v1 (fun x v => Host.reduceAdd x v reducesTo_S8192x128_S8192_d1 h_S_),
    StableHlo.TRef.unary main_call0.v1 main_call0.v2 (broadcastInDim S8192x1 ![0] bcast_S8192_S8192x1_0),
    StableHlo.TRef.unary main_call0.v2 main_call0.v3 Host.sqrt ]

/-- The clamp, the division, the similarity array, its exponential, and the start of the partner index. -/
abbrev opsA : List (HloOp τ sig (Elt F)) :=
  [ StableHlo.nullary main_cst (constant S_ .f32 0x358637BD#32),
    StableHlo.unary main_cst main_v1 (broadcastInDim S8192x1 ![] bcast_S_S8192x1 : (⟨S_, .f32⟩ : BufTy).Contents (Elt F) → (⟨S8192x1, .f32⟩ : BufTy).Contents (Elt F)),
    StableHlo.binary main_v0 main_v1 main_v2 (maximumf : (⟨S8192x1, .f32⟩ : BufTy).Contents (Elt F) → (⟨S8192x1, .f32⟩ : BufTy).Contents (Elt F) → (⟨S8192x1, .f32⟩ : BufTy).Contents (Elt F)),
    StableHlo.unary main_v2 main_v3 (broadcastInDim S8192x128 ![0, 1] bcast_S8192x1_S8192x128_0_1 : (⟨S8192x1, .f32⟩ : BufTy).Contents (Elt F) → (⟨S8192x128, .f32⟩ : BufTy).Contents (Elt F)),
    StableHlo.binary main_arg0 main_v3 main_v4 (Host.divf : (⟨S8192x128, .f32⟩ : BufTy).Contents (Elt F) → (⟨S8192x128, .f32⟩ : BufTy).Contents (Elt F) → (⟨S8192x128, .f32⟩ : BufTy).Contents (Elt F)),
    StableHlo.binary main_v4 main_v4 main_v5 ((fun l r => Host.dotGeneral dot_S8192x128_S8192x128_S8192x8192_1_1_0_0_n_n none l r) : (⟨S8192x128, .f32⟩ : BufTy).Contents (Elt F) → (⟨S8192x128, .f32⟩ : BufTy).Contents (Elt F) → (⟨S8192x8192, .f32⟩ : BufTy).Contents (Elt F)),
    StableHlo.nullary main_cst_0 (constant S_ .f32 0x3F000000#32),
    StableHlo.unary main_cst_0 main_v6 (broadcastInDim S8192x8192 ![] bcast_S_S8192x8192 : (⟨S_, .f32⟩ : BufTy).Contents (Elt F) → (⟨S8192x8192, .f32⟩ : BufTy).Contents (Elt F)),
    StableHlo.binary main_v5 main_v6 main_v7 (Host.divf : (⟨S8192x8192, .f32⟩ : BufTy).Contents (Elt F) → (⟨S8192x8192, .f32⟩ : BufTy).Contents (Elt F) → (⟨S8192x8192, .f32⟩ : BufTy).Contents (Elt F)),
    StableHlo.unary main_v7 main_v8 (Host.exp : (⟨S8192x8192, .f32⟩ : BufTy).Contents (Elt F) → (⟨S8192x8192, .f32⟩ : BufTy).Contents (Elt F)),
    StableHlo.nullary main_v9 (iotaInDim S8192 32 0),
    StableHlo.nullary main_c (constantI S_ 32 4096#32),
    StableHlo.unary main_c main_v10 (broadcastInDim S8192 ![] bcast_S_S8192 : (⟨S_, .i32⟩ : BufTy).Contents (Elt F) → (⟨S8192, .i32⟩ : BufTy).Contents (Elt F)),
    StableHlo.binary main_v9 main_v10 main_v11 (addi : (⟨S8192, .i32⟩ : BufTy).Contents (Elt F) → (⟨S8192, .i32⟩ : BufTy).Contents (Elt F) → (⟨S8192, .i32⟩ : BufTy).Contents (Elt F)),
    StableHlo.nullary main_c_1 (constantI S_ 32 8192#32) ]

/-- The remainder's divisor, guarded against zero. -/
abbrev remOps1 : List (HloOp τ sig (Elt F)) :=
  [ StableHlo.TRef.unary (.of main_c_1 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32) ]

/-- The scalar select of the guard. -/
abbrev whereOps : List (HloOp τ sig (Elt F)) :=
  [ StableHlo.TRef.ternary main_call1.v1 main_call1.c_0 main_call1.v0 main_call1.call0.v0 select ]

/-- The remainder itself, moved to the divisor's sign. -/
abbrev remOps2 : List (HloOp τ sig (Elt F)) :=
  [ StableHlo.TRef.unary main_call1.call0.v0 main_call1.v3 (broadcastInDim S8192 ![] bcast_S_S8192),
    StableHlo.TRef.binary (.of main_v11 : StableHlo.TRef sig ⟨S8192, .i32⟩) main_call1.v3 main_call1.v4 Host.remsi,
    StableHlo.TRef.nullary main_call1.c_1 (constantI S_ 32 0#32),
    StableHlo.TRef.unary main_call1.c_1 main_call1.v5 (broadcastInDim S8192 ![] bcast_S_S8192),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S8192 ![] bcast_S_S8192),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S8192 ![] bcast_S_S8192),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S8192 ![] bcast_S_S8192),
    StableHlo.TRef.binary main_call1.v4 main_call1.v13 main_call1.v14 addi,
    StableHlo.TRef.ternary main_call1.v12 main_call1.v14 main_call1.v4 main_call1.v15 select ]

/-- The index pairs, the two gathers, the row sums, the loss's terms and their sum. -/
abbrev opsB : List (HloOp τ sig (Elt F)) :=
  [ StableHlo.nullary main_c_2 (constantI S_ 32 0#32),
    StableHlo.unary main_c_2 main_v13 (broadcastInDim S8192 ![] bcast_S_S8192 : (⟨S_, .i32⟩ : BufTy).Contents (Elt F) → (⟨S8192, .i32⟩ : BufTy).Contents (Elt F)),
    StableHlo.binary main_v9 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v15 (broadcastInDim S8192 ![] bcast_S_S8192 : (⟨S_, .i32⟩ : BufTy).Contents (Elt F) → (⟨S8192, .i32⟩ : BufTy).Contents (Elt F)),
    StableHlo.binary main_v9 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v9 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_4 (constantI S_ 32 0#32),
    StableHlo.unary main_c_4 main_v18 (broadcastInDim S8192 ![] bcast_S_S8192 : (⟨S_, .i32⟩ : BufTy).Contents (Elt F) → (⟨S8192, .i32⟩ : BufTy).Contents (Elt F)),
    StableHlo.binary main_v12 main_v18 main_v19 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 8192#32),
    StableHlo.unary main_c_5 main_v20 (broadcastInDim S8192 ![] bcast_S_S8192 : (⟨S_, .i32⟩ : BufTy).Contents (Elt F) → (⟨S8192, .i32⟩ : BufTy).Contents (Elt F)),
    StableHlo.binary main_v12 main_v20 main_v21 (addi : (⟨S8192, .i32⟩ : BufTy).Contents (Elt F) → (⟨S8192, .i32⟩ : BufTy).Contents (Elt F) → (⟨S8192, .i32⟩ : BufTy).Contents (Elt F)),
    StableHlo.ternary main_v19 main_v21 main_v12 main_v22 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v23 (broadcastInDim S8192x1 ![0] bcast_S8192_S8192x1_0 : (⟨S8192, .i32⟩ : BufTy).Contents (Elt F) → (⟨S8192x1, .i32⟩ : BufTy).Contents (Elt F)),
    StableHlo.unary main_v22 main_v24 (broadcastInDim S8192x1 ![0] bcast_S8192_S8192x1_0 : (⟨S8192, .i32⟩ : BufTy).Contents (Elt F) → (⟨S8192x1, .i32⟩ : BufTy).Contents (Elt F)),
    StableHlo.binary main_v23 main_v24 main_v25 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v8 main_v25 main_v26 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_cst_6 (constant S_ .f32 0x00000000#32),
    StableHlo.binary main_v8 main_cst_6 main_v27 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_c_7 (constantI S_ 32 0#32),
    StableHlo.unary main_c_7 main_v28 (broadcastInDim S8192 ![] bcast_S_S8192 : (⟨S_, .i32⟩ : BufTy).Contents (Elt F) → (⟨S8192, .i32⟩ : BufTy).Contents (Elt F)),
    StableHlo.binary main_v9 main_v28 main_v29 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v30 (broadcastInDim S8192 ![] bcast_S_S8192 : (⟨S_, .i32⟩ : BufTy).Contents (Elt F) → (⟨S8192, .i32⟩ : BufTy).Contents (Elt F)),
    StableHlo.binary main_v9 main_v30 main_v31 (addi : (⟨S8192, .i32⟩ : BufTy).Contents (Elt F) → (⟨S8192, .i32⟩ : BufTy).Contents (Elt F) → (⟨S8192, .i32⟩ : BufTy).Contents (Elt F)),
    StableHlo.ternary main_v29 main_v31 main_v9 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_9 (constantI S_ 32 0#32),
    StableHlo.unary main_c_9 main_v33 (broadcastInDim S8192 ![] bcast_S_S8192 : (⟨S_, .i32⟩ : BufTy).Contents (Elt F) → (⟨S8192, .i32⟩ : BufTy).Contents (Elt F)),
    StableHlo.binary main_v9 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v35 (broadcastInDim S8192 ![] bcast_S_S8192 : (⟨S_, .i32⟩ : BufTy).Contents (Elt F) → (⟨S8192, .i32⟩ : BufTy).Contents (Elt F)),
    StableHlo.binary main_v9 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_v9 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v32 main_v38 (broadcastInDim S8192x1 ![0] bcast_S8192_S8192x1_0 : (⟨S8192, .i32⟩ : BufTy).Contents (Elt F) → (⟨S8192x1, .i32⟩ : BufTy).Contents (Elt F)),
    StableHlo.unary main_v37 main_v39 (broadcastInDim S8192x1 ![0] bcast_S8192_S8192x1_0 : (⟨S8192, .i32⟩ : BufTy).Contents (Elt F) → (⟨S8192x1, .i32⟩ : BufTy).Contents (Elt F)),
    StableHlo.binary main_v38 main_v39 main_v40 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v8 main_v40 main_v41 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v27 main_v41 main_v42 (subf : (⟨S8192, .f32⟩ : BufTy).Contents (Elt F) → (⟨S8192, .f32⟩ : BufTy).Contents (Elt F) → (⟨S8192, .f32⟩ : BufTy).Contents (Elt F)),
    StableHlo.unary main_v42 main_v43 (Host.sqrt : (⟨S8192, .f32⟩ : BufTy).Contents (Elt F) → (⟨S8192, .f32⟩ : BufTy).Contents (Elt F)),
    StableHlo.binary main_v26 main_v43 main_v44 (Host.divf : (⟨S8192, .f32⟩ : BufTy).Contents (Elt F) → (⟨S8192, .f32⟩ : BufTy).Contents (Elt F) → (⟨S8192, .f32⟩ : BufTy).Contents (Elt F)),
    StableHlo.unary main_v44 main_v45 (Host.log : (⟨S8192, .f32⟩ : BufTy).Contents (Elt F) → (⟨S8192, .f32⟩ : BufTy).Contents (Elt F)),
    StableHlo.unary main_v45 main_v46 (Host.negf : (⟨S8192, .f32⟩ : BufTy).Contents (Elt F) → (⟨S8192, .f32⟩ : BufTy).Contents (Elt F)),
    StableHlo.nullary main_cst_11 (constant S_ .f32 0x00000000#32),
    StableHlo.binary main_v46 main_cst_11 main_v47 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

/-- All the operations, in program order. -/
abbrev ops : List (HloOp τ sig (Elt F)) := List.flatten [normOps, opsA, remOps1, whereOps, remOps2, opsB]

theorem norm_eq : (fn_norm.body (F := F) (.of main_arg0) main_call0) = StableHlo.seq normOps := by chain_rfl
theorem where_eq : (fn_where.body (F := F) main_call1.v1 main_call1.c_0 main_call1.v0 main_call1.call0) = StableHlo.seq whereOps := by chain_rfl
theorem rem_eq : (fn_remainder.body (F := F) (.of main_v11) (.of main_c_1) main_call1)
    = Pipeline.chain [StableHlo.seq remOps1, fn_where.body (F := F) main_call1.v1 main_call1.c_0 main_call1.v0 main_call1.call0, StableHlo.seq remOps2] := by chain_rfl
theorem main_chain (d : Dev nD) : main (F := F) d
    = Pipeline.chain [fn_norm.body (F := F) (.of main_arg0) main_call0, StableHlo.seq opsA,
        fn_remainder.body (F := F) (.of main_v11) (.of main_c_1) main_call1, StableHlo.seq opsB] := by chain_rfl

/-- @main is the straight line of all the operations. -/
theorem main_eq (d : Dev nD) : main (F := F) d = StableHlo.seq ops := by
  rw [main_chain, norm_eq, rem_eq, where_eq]
  have h3 := StableHlo.chain_map_seq (nD := nD) (Λ := Pipeline.Sig Λ₀ (Fin 0) fun p => (pcfgs (F := F) p).Adm) [remOps1 (F := F), whereOps, remOps2]
  simp only [List.map_cons, List.map_nil] at h3
  rw [h3]
  have h4 := StableHlo.chain_map_seq (nD := nD) (Λ := Pipeline.Sig Λ₀ (Fin 0) fun p => (pcfgs (F := F) p).Adm) [normOps (F := F), opsA, List.flatten [remOps1, whereOps, remOps2], opsB]
  simp only [List.map_cons, List.map_nil] at h4
  rw [h4]
  simp only [ops, List.flatten_cons, List.flatten_nil, List.append_nil, List.append_assoc]

end Cert.ReferenceIdeal.RefRun

end
-- ==== Proof.ReferenceRun.lean ====
/-
  The run of the reference program: every weakly fair execution terminates, and each buffer ends at the fold of the
  program's operations, in order, over the launch contents.
-/
import proofs.«110751_j72619307041593_1_alg».proof.Proof.ReferenceOps

set_option maxRecDepth 16384

noncomputable section

namespace Cert.ReferenceIdeal.RefRun

open Cert.ReferenceIdeal
open Idealize.ShloMosaic Idealize.ShloMosaic.TcCoe Idealize.SL.Sem
open Facts₀ Facts

variable {F : FTy → Type} [FloatOps F]
variable [hF : Cert.ReferenceIdeal.Facts]

/-- The program's operations as one literal list. -/
abbrev opsAll : List (HloOp τ sig (Elt F)) :=
  [ StableHlo.TRef.binary (.of main_arg0 : StableHlo.TRef sig ⟨S8192x128, .f32⟩) (.of main_arg0 : StableHlo.TRef sig ⟨S8192x128, .f32⟩) main_call0.v0 mulf,
    StableHlo.TRef.nullary main_call0.cst (constant S_ .f32 0x00000000#32),
    StableHlo.TRef.binary main_call0.v0 main_call0.cst main_call0.v1 (fun x v => Host.reduceAdd x v reducesTo_S8192x128_S8192_d1 h_S_),
    StableHlo.TRef.unary main_call0.v1 main_call0.v2 (broadcastInDim S8192x1 ![0] bcast_S8192_S8192x1_0),
    StableHlo.TRef.unary main_call0.v2 main_call0.v3 Host.sqrt,
    StableHlo.nullary main_cst (constant S_ .f32 0x358637BD#32),
    StableHlo.unary main_cst main_v1 (broadcastInDim S8192x1 ![] bcast_S_S8192x1 : (⟨S_, .f32⟩ : BufTy).Contents (Elt F) → (⟨S8192x1, .f32⟩ : BufTy).Contents (Elt F)),
    StableHlo.binary main_v0 main_v1 main_v2 (maximumf : (⟨S8192x1, .f32⟩ : BufTy).Contents (Elt F) → (⟨S8192x1, .f32⟩ : BufTy).Contents (Elt F) → (⟨S8192x1, .f32⟩ : BufTy).Contents (Elt F)),
    StableHlo.unary main_v2 main_v3 (broadcastInDim S8192x128 ![0, 1] bcast_S8192x1_S8192x128_0_1 : (⟨S8192x1, .f32⟩ : BufTy).Contents (Elt F) → (⟨S8192x128, .f32⟩ : BufTy).Contents (Elt F)),
    StableHlo.binary main_arg0 main_v3 main_v4 (Host.divf : (⟨S8192x128, .f32⟩ : BufTy).Contents (Elt F) → (⟨S8192x128, .f32⟩ : BufTy).Contents (Elt F) → (⟨S8192x128, .f32⟩ : BufTy).Contents (Elt F)),
    StableHlo.binary main_v4 main_v4 main_v5 ((fun l r => Host.dotGeneral dot_S8192x128_S8192x128_S8192x8192_1_1_0_0_n_n none l r) : (⟨S8192x128, .f32⟩ : BufTy).Contents (Elt F) → (⟨S8192x128, .f32⟩ : BufTy).Contents (Elt F) → (⟨S8192x8192, .f32⟩ : BufTy).Contents (Elt F)),
    StableHlo.nullary main_cst_0 (constant S_ .f32 0x3F000000#32),
    StableHlo.unary main_cst_0 main_v6 (broadcastInDim S8192x8192 ![] bcast_S_S8192x8192 : (⟨S_, .f32⟩ : BufTy).Contents (Elt F) → (⟨S8192x8192, .f32⟩ : BufTy).Contents (Elt F)),
    StableHlo.binary main_v5 main_v6 main_v7 (Host.divf : (⟨S8192x8192, .f32⟩ : BufTy).Contents (Elt F) → (⟨S8192x8192, .f32⟩ : BufTy).Contents (Elt F) → (⟨S8192x8192, .f32⟩ : BufTy).Contents (Elt F)),
    StableHlo.unary main_v7 main_v8 (Host.exp : (⟨S8192x8192, .f32⟩ : BufTy).Contents (Elt F) → (⟨S8192x8192, .f32⟩ : BufTy).Contents (Elt F)),
    StableHlo.nullary main_v9 (iotaInDim S8192 32 0),
    StableHlo.nullary main_c (constantI S_ 32 4096#32),
    StableHlo.unary main_c main_v10 (broadcastInDim S8192 ![] bcast_S_S8192 : (⟨S_, .i32⟩ : BufTy).Contents (Elt F) → (⟨S8192, .i32⟩ : BufTy).Contents (Elt F)),
    StableHlo.binary main_v9 main_v10 main_v11 (addi : (⟨S8192, .i32⟩ : BufTy).Contents (Elt F) → (⟨S8192, .i32⟩ : BufTy).Contents (Elt F) → (⟨S8192, .i32⟩ : BufTy).Contents (Elt F)),
    StableHlo.nullary main_c_1 (constantI S_ 32 8192#32),
    StableHlo.TRef.unary (.of main_c_1 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S8192 ![] bcast_S_S8192),
    StableHlo.TRef.binary (.of main_v11 : StableHlo.TRef sig ⟨S8192, .i32⟩) main_call1.v3 main_call1.v4 Host.remsi,
    StableHlo.TRef.nullary main_call1.c_1 (constantI S_ 32 0#32),
    StableHlo.TRef.unary main_call1.c_1 main_call1.v5 (broadcastInDim S8192 ![] bcast_S_S8192),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S8192 ![] bcast_S_S8192),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S8192 ![] bcast_S_S8192),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S8192 ![] bcast_S_S8192),
    StableHlo.TRef.binary main_call1.v4 main_call1.v13 main_call1.v14 addi,
    StableHlo.TRef.ternary main_call1.v12 main_call1.v14 main_call1.v4 main_call1.v15 select,
    StableHlo.nullary main_c_2 (constantI S_ 32 0#32),
    StableHlo.unary main_c_2 main_v13 (broadcastInDim S8192 ![] bcast_S_S8192 : (⟨S_, .i32⟩ : BufTy).Contents (Elt F) → (⟨S8192, .i32⟩ : BufTy).Contents (Elt F)),
    StableHlo.binary main_v9 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v15 (broadcastInDim S8192 ![] bcast_S_S8192 : (⟨S_, .i32⟩ : BufTy).Contents (Elt F) → (⟨S8192, .i32⟩ : BufTy).Contents (Elt F)),
    StableHlo.binary main_v9 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v9 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_4 (constantI S_ 32 0#32),
    StableHlo.unary main_c_4 main_v18 (broadcastInDim S8192 ![] bcast_S_S8192 : (⟨S_, .i32⟩ : BufTy).Contents (Elt F) → (⟨S8192, .i32⟩ : BufTy).Contents (Elt F)),
    StableHlo.binary main_v12 main_v18 main_v19 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 8192#32),
    StableHlo.unary main_c_5 main_v20 (broadcastInDim S8192 ![] bcast_S_S8192 : (⟨S_, .i32⟩ : BufTy).Contents (Elt F) → (⟨S8192, .i32⟩ : BufTy).Contents (Elt F)),
    StableHlo.binary main_v12 main_v20 main_v21 (addi : (⟨S8192, .i32⟩ : BufTy).Contents (Elt F) → (⟨S8192, .i32⟩ : BufTy).Contents (Elt F) → (⟨S8192, .i32⟩ : BufTy).Contents (Elt F)),
    StableHlo.ternary main_v19 main_v21 main_v12 main_v22 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v23 (broadcastInDim S8192x1 ![0] bcast_S8192_S8192x1_0 : (⟨S8192, .i32⟩ : BufTy).Contents (Elt F) → (⟨S8192x1, .i32⟩ : BufTy).Contents (Elt F)),
    StableHlo.unary main_v22 main_v24 (broadcastInDim S8192x1 ![0] bcast_S8192_S8192x1_0 : (⟨S8192, .i32⟩ : BufTy).Contents (Elt F) → (⟨S8192x1, .i32⟩ : BufTy).Contents (Elt F)),
    StableHlo.binary main_v23 main_v24 main_v25 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v8 main_v25 main_v26 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_cst_6 (constant S_ .f32 0x00000000#32),
    StableHlo.binary main_v8 main_cst_6 main_v27 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_c_7 (constantI S_ 32 0#32),
    StableHlo.unary main_c_7 main_v28 (broadcastInDim S8192 ![] bcast_S_S8192 : (⟨S_, .i32⟩ : BufTy).Contents (Elt F) → (⟨S8192, .i32⟩ : BufTy).Contents (Elt F)),
    StableHlo.binary main_v9 main_v28 main_v29 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v30 (broadcastInDim S8192 ![] bcast_S_S8192 : (⟨S_, .i32⟩ : BufTy).Contents (Elt F) → (⟨S8192, .i32⟩ : BufTy).Contents (Elt F)),
    StableHlo.binary main_v9 main_v30 main_v31 (addi : (⟨S8192, .i32⟩ : BufTy).Contents (Elt F) → (⟨S8192, .i32⟩ : BufTy).Contents (Elt F) → (⟨S8192, .i32⟩ : BufTy).Contents (Elt F)),
    StableHlo.ternary main_v29 main_v31 main_v9 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_9 (constantI S_ 32 0#32),
    StableHlo.unary main_c_9 main_v33 (broadcastInDim S8192 ![] bcast_S_S8192 : (⟨S_, .i32⟩ : BufTy).Contents (Elt F) → (⟨S8192, .i32⟩ : BufTy).Contents (Elt F)),
    StableHlo.binary main_v9 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v35 (broadcastInDim S8192 ![] bcast_S_S8192 : (⟨S_, .i32⟩ : BufTy).Contents (Elt F) → (⟨S8192, .i32⟩ : BufTy).Contents (Elt F)),
    StableHlo.binary main_v9 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_v9 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v32 main_v38 (broadcastInDim S8192x1 ![0] bcast_S8192_S8192x1_0 : (⟨S8192, .i32⟩ : BufTy).Contents (Elt F) → (⟨S8192x1, .i32⟩ : BufTy).Contents (Elt F)),
    StableHlo.unary main_v37 main_v39 (broadcastInDim S8192x1 ![0] bcast_S8192_S8192x1_0 : (⟨S8192, .i32⟩ : BufTy).Contents (Elt F) → (⟨S8192x1, .i32⟩ : BufTy).Contents (Elt F)),
    StableHlo.binary main_v38 main_v39 main_v40 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v8 main_v40 main_v41 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v27 main_v41 main_v42 (subf : (⟨S8192, .f32⟩ : BufTy).Contents (Elt F) → (⟨S8192, .f32⟩ : BufTy).Contents (Elt F) → (⟨S8192, .f32⟩ : BufTy).Contents (Elt F)),
    StableHlo.unary main_v42 main_v43 (Host.sqrt : (⟨S8192, .f32⟩ : BufTy).Contents (Elt F) → (⟨S8192, .f32⟩ : BufTy).Contents (Elt F)),
    StableHlo.binary main_v26 main_v43 main_v44 (Host.divf : (⟨S8192, .f32⟩ : BufTy).Contents (Elt F) → (⟨S8192, .f32⟩ : BufTy).Contents (Elt F) → (⟨S8192, .f32⟩ : BufTy).Contents (Elt F)),
    StableHlo.unary main_v44 main_v45 (Host.log : (⟨S8192, .f32⟩ : BufTy).Contents (Elt F) → (⟨S8192, .f32⟩ : BufTy).Contents (Elt F)),
    StableHlo.unary main_v45 main_v46 (Host.negf : (⟨S8192, .f32⟩ : BufTy).Contents (Elt F) → (⟨S8192, .f32⟩ : BufTy).Contents (Elt F)),
    StableHlo.nullary main_cst_11 (constant S_ .f32 0x00000000#32),
    StableHlo.binary main_v46 main_cst_11 main_v47 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

theorem ops_eq : (ops (F := F)) = opsAll := rfl

theorem opsAll_sub : (opsAll : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.nullary_bufs_sub .., StableHlo.unary_bufs_sub .., StableHlo.binary_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.unary_bufs_sub .., StableHlo.nullary_bufs_sub .., StableHlo.binary_bufs_sub ..⟩

/-- Every weakly fair execution of the reference terminates with each buffer at the fold of the operations. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = StableHlo.after opsAll (StableHlo.launchContents m d) (Proc.devRef .tc b) :=
  StableHlo.run_seq (by decide) (by decide) defs main (fun _ => opsAll) (fun d => (main_eq d).trans (congrArg StableHlo.seq ops_eq)) (fun _ => opsAll_sub) m ρ

end Cert.ReferenceIdeal.RefRun

end
-- ==== Proof.LibPointGather.lean ====
/-
  A point gather out of a matrix: x[rows, cols] for two integer vectors of one length, which lowers to a
  stablehlo.gather over the index pairs [R, 2] (offset_dims [], collapsed_slice_dims [0, 1], start_index_map [0, 1],
  index_vector_dim 1, slice_sizes [1, 1]). Result element r is the matrix at the r-th pair, each component read as a
  signed integer (negatives to 0) and clamped into its axis. General in the three extents, the index width and the
  element type.
-/
import Idealize.ShloMosaic.PureOps.Ideal.Laws
import Idealize.ShloMosaic.Lib.ValueIdx

noncomputable section

namespace LibPointGather

open Idealize.ShloMosaic Idealize.ShloMosaic.ValueIdx

variable {α : Type}

/-- Those dimension numbers for an [N, M] operand, [R, 2] index pairs and an [R] result. -/
abbrev pairDims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

section
variable {N M R w : Nat} (wf : GatherDims.WF ⟨2, ![N, M]⟩ ⟨2, ![R, 2]⟩ ⟨1, ![R]⟩ [] [0, 1] [] [0, 1] [] 1 ![1, 1])
  (idx : IVec ⟨2, ![R, 2]⟩ w) (r : Fin R)

/-- The slice's start on the rows' axis: the pair's first component, clamped. -/
theorem start_rows : (pairDims N M R wf).start (ix1 r) idx (0 : Fin 2) = min (idx (ix2 r (0 : Fin 2))).toInt.toNat (N - 1) := by
  unfold GatherDims.start
  rw [dif_pos (show (0 : Fin 2) ∈ (pairDims N M R wf).startIndexMap from by simp)]
  have hsi : (pairDims N M R wf).siIdx (ix1 r) ⟨List.idxOf (0 : Fin 2) (pairDims N M R wf).startIndexMap,
      List.idxOf_lt_length_iff.2 (by simp)⟩ = ix2 r (0 : Fin 2) := by
    funext b; refine Fin.ext ?_
    match b with
    | ⟨0, _⟩ => rfl
    | ⟨1, _⟩ => rfl
  rw [hsi]
  rfl

/-- The slice's start on the columns' axis: the pair's second component, clamped. -/
theorem start_cols : (pairDims N M R wf).start (ix1 r) idx (1 : Fin 2) = min (idx (ix2 r (1 : Fin 2))).toInt.toNat (M - 1) := by
  unfold GatherDims.start
  rw [dif_pos (show (1 : Fin 2) ∈ (pairDims N M R wf).startIndexMap from by simp)]
  have hsi : (pairDims N M R wf).siIdx (ix1 r) ⟨List.idxOf (1 : Fin 2) (pairDims N M R wf).startIndexMap,
      List.idxOf_lt_length_iff.2 (by simp)⟩ = ix2 r (1 : Fin 2) := by
    funext b; refine Fin.ext ?_
    match b with
    | ⟨0, _⟩ => rfl
    | ⟨1, _⟩ => rfl
  rw [hsi]
  rfl

end

/-- THE GATHER READ AT r: the matrix at (pair r's first component, pair r's second component), each read signed and
    clamped into its axis. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 ⟨min (idx (ix2 r (0 : Fin 2))).toInt.toNat (N - 1), by omega⟩ ⟨min (idx (ix2 r (1 : Fin 2))).toInt.toNat (M - 1), by omega⟩) := by
  unfold Host.gather
  congr 1
  funext a
  refine Fin.ext ?_
  match a with
  | ⟨0, _⟩ =>
    show (pairDims N M R wf).start (ix1 r) idx (0 : Fin 2) + (pairDims N M R wf).batchCoord (ix1 r) (0 : Fin 2) + (pairDims N M R wf).offCoord (ix1 r) (0 : Fin 2) = _
    rw [GatherDims.batchCoord_eq_zero _ _ _ List.not_mem_nil,
      GatherDims.offCoord_eq_zero _ _ _ (fun h => ((GatherDims.mem_sKept _ _).mp h).1 (by simp)), start_rows]
    rfl
  | ⟨1, _⟩ =>
    show (pairDims N M R wf).start (ix1 r) idx (1 : Fin 2) + (pairDims N M R wf).batchCoord (ix1 r) (1 : Fin 2) + (pairDims N M R wf).offCoord (ix1 r) (1 : Fin 2) = _
    rw [GatherDims.batchCoord_eq_zero _ _ _ List.not_mem_nil,
      GatherDims.offCoord_eq_zero _ _ _ (fun h => ((GatherDims.mem_sKept _ _).mp h).1 (by simp)), start_cols]
    rfl

end LibPointGather

end
-- ==== Proof.IndexWords.lean ====
/-
  Two 32-bit integer computations, checked on every row number 0 ≤ r < 8192.
  The first normalizes an index that may be negative: r if r ≥ 0, else r + 8192; on a row number it is r.
  The second is (r + 4096) mod 8192 as a host program computes a Python-style remainder: the truncating remainder,
  moved by the divisor when its sign differs from the divisor's; on a row number it is (r + 4096) mod 8192.
-/
import Idealize.ShloMosaic.PureOps.Ideal.Laws

namespace IndexWords

open Idealize.ShloMosaic

/-- A possibly negative index made non-negative. -/
def rowIdxS (b : BitVec 32) : BitVec 32 := Scalar.select (IntOp.cmpi .slt b 0#32) (IntOp.addi b 8192#32) b

theorem rowIdx_all : (List.range 8192).all (fun r => decide ((rowIdxS (BitVec.ofNat 32 r)).toInt.toNat = r)) = true := by
  decide +kernel

theorem rowIdx_ok (r : Nat) (hr : r < 8192) : (rowIdxS (BitVec.ofNat 32 r)).toInt.toNat = r :=
  of_decide_eq_true ((List.all_eq_true.mp rowIdx_all) r (List.mem_range.mpr hr))

/-- (b + 4096) mod 8192 as a host program computes a Python-style remainder: the truncating remainder by the divisor
    (guarded against zero), moved by the divisor when it is non-zero and its sign differs from the divisor's. -/
def remPart (b : BitVec 32) : BitVec 32 :=
  let d : BitVec 32 := Scalar.select (IntOp.cmpi .eq (8192#32 : BitVec 32) 0#32) 1#32 8192#32
  let x := IntOp.addi b 4096#32
  let v4 := IntOp.remsi .host x d
  let v6 := IntOp.cmpi .ne v4 0#32
  let v8 := IntOp.cmpi .slt v4 0#32
  let v9 := IntOp.cmpi .slt d 0#32
  let v11 := IntOp.cmpi .ne v8 v9
  let v12 := IntOp.andi v11 v6
  let v14 := IntOp.addi v4 d
  Scalar.select v12 v14 v4

theorem remPart_all : (List.range 8192).all (fun r => decide (remPart (BitVec.ofNat 32 r) = BitVec.ofNat 32 ((r + 4096) % 8192))) = true := by
  decide +kernel

theorem remPart_ok (r : Nat) (hr : r < 8192) : remPart (BitVec.ofNat 32 r) = BitVec.ofNat 32 ((r + 4096) % 8192) :=
  of_decide_eq_true ((List.all_eq_true.mp remPart_all) r (List.mem_range.mpr hr))

end IndexWords
-- ==== Proof.ReferenceRead.lean ====
/-
  The reference program's result, at the extended reals. Read in three stretches. The first normalizes the rows, forms
  the 8192 × 8192 array of exponentiated similarities, and computes, in 32-bit integers, each row's own number and its
  partner's, (i + 4096) mod 8192. The second pairs the numbers into index pairs, gathers each row's partner entry, sums
  each row, and prepares the diagonal's index pairs. The third gathers the diagonal, subtracts it from the row sums, and
  sums minus the logarithm of the partner entry over the root of the difference.
-/
import proofs.«110751_j72619307041593_1_alg».proof.Proof.ReferenceRun
import proofs.«110751_j72619307041593_1_alg».proof.Proof.LibHostRead
import proofs.«110751_j72619307041593_1_alg».proof.Proof.LibPointGather
import proofs.«110751_j72619307041593_1_alg».proof.Proof.LossAlgebra
import proofs.«110751_j72619307041593_1_alg».proof.Proof.IndexWords
import proofs.«110751_j72619307041593_1_alg».proof.Proof.LibSeqChain
import Idealize.ShloMosaic.Lib.Pipeline.Value

set_option maxRecDepth 16384

noncomputable section

open scoped BigOperators

namespace Cert.ReferenceIdeal.RefRun

open Cert.ReferenceIdeal
open Idealize.ShloMosaic Idealize.ShloMosaic.TcCoe Idealize.ShloMosaic.ValueIdx Idealize.ShloMosaic.StableHlo
open Idealize.SL.Sem
open Facts₀ Facts
open LossAlgebra

variable [hF : Cert.ReferenceIdeal.Facts]

/-- The normalization, the array of exponentiated similarities, the row numbers and each partner's number. -/
abbrev seg1a {F : FTy → Type} [FloatOps F] : List (HloOp τ sig (Elt F)) :=
  [ StableHlo.TRef.binary (.of main_arg0 : StableHlo.TRef sig ⟨S8192x128, .f32⟩) (.of main_arg0 : StableHlo.TRef sig ⟨S8192x128, .f32⟩) main_call0.v0 mulf,
    StableHlo.TRef.nullary main_call0.cst (constant S_ .f32 0x00000000#32),
    StableHlo.TRef.binary main_call0.v0 main_call0.cst main_call0.v1 (fun x v => Host.reduceAdd x v reducesTo_S8192x128_S8192_d1 h_S_),
    StableHlo.TRef.unary main_call0.v1 main_call0.v2 (broadcastInDim S8192x1 ![0] bcast_S8192_S8192x1_0),
    StableHlo.TRef.unary main_call0.v2 main_call0.v3 Host.sqrt,
    StableHlo.nullary main_cst (constant S_ .f32 0x358637BD#32),
    StableHlo.unary main_cst main_v1 (broadcastInDim S8192x1 ![] bcast_S_S8192x1 : (⟨S_, .f32⟩ : BufTy).Contents (Elt F) → (⟨S8192x1, .f32⟩ : BufTy).Contents (Elt F)),
    StableHlo.binary main_v0 main_v1 main_v2 (maximumf : (⟨S8192x1, .f32⟩ : BufTy).Contents (Elt F) → (⟨S8192x1, .f32⟩ : BufTy).Contents (Elt F) → (⟨S8192x1, .f32⟩ : BufTy).Contents (Elt F)),
    StableHlo.unary main_v2 main_v3 (broadcastInDim S8192x128 ![0, 1] bcast_S8192x1_S8192x128_0_1 : (⟨S8192x1, .f32⟩ : BufTy).Contents (Elt F) → (⟨S8192x128, .f32⟩ : BufTy).Contents (Elt F)),
    StableHlo.binary main_arg0 main_v3 main_v4 (Host.divf : (⟨S8192x128, .f32⟩ : BufTy).Contents (Elt F) → (⟨S8192x128, .f32⟩ : BufTy).Contents (Elt F) → (⟨S8192x128, .f32⟩ : BufTy).Contents (Elt F)),
    StableHlo.binary main_v4 main_v4 main_v5 ((fun l r => Host.dotGeneral dot_S8192x128_S8192x128_S8192x8192_1_1_0_0_n_n none l r) : (⟨S8192x128, .f32⟩ : BufTy).Contents (Elt F) → (⟨S8192x128, .f32⟩ : BufTy).Contents (Elt F) → (⟨S8192x8192, .f32⟩ : BufTy).Contents (Elt F)),
    StableHlo.nullary main_cst_0 (constant S_ .f32 0x3F000000#32),
    StableHlo.unary main_cst_0 main_v6 (broadcastInDim S8192x8192 ![] bcast_S_S8192x8192 : (⟨S_, .f32⟩ : BufTy).Contents (Elt F) → (⟨S8192x8192, .f32⟩ : BufTy).Contents (Elt F)),
    StableHlo.binary main_v5 main_v6 main_v7 (Host.divf : (⟨S8192x8192, .f32⟩ : BufTy).Contents (Elt F) → (⟨S8192x8192, .f32⟩ : BufTy).Contents (Elt F) → (⟨S8192x8192, .f32⟩ : BufTy).Contents (Elt F)),
    StableHlo.unary main_v7 main_v8 (Host.exp : (⟨S8192x8192, .f32⟩ : BufTy).Contents (Elt F) → (⟨S8192x8192, .f32⟩ : BufTy).Contents (Elt F)),
    StableHlo.nullary main_v9 (iotaInDim S8192 32 0),
    StableHlo.nullary main_c (constantI S_ 32 4096#32),
    StableHlo.unary main_c main_v10 (broadcastInDim S8192 ![] bcast_S_S8192 : (⟨S_, .i32⟩ : BufTy).Contents (Elt F) → (⟨S8192, .i32⟩ : BufTy).Contents (Elt F)),
    StableHlo.binary main_v9 main_v10 main_v11 (addi : (⟨S8192, .i32⟩ : BufTy).Contents (Elt F) → (⟨S8192, .i32⟩ : BufTy).Contents (Elt F) → (⟨S8192, .i32⟩ : BufTy).Contents (Elt F)),
    StableHlo.nullary main_c_1 (constantI S_ 32 8192#32),
    StableHlo.TRef.unary (.of main_c_1 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S8192 ![] bcast_S_S8192),
    StableHlo.TRef.binary (.of main_v11 : StableHlo.TRef sig ⟨S8192, .i32⟩) main_call1.v3 main_call1.v4 Host.remsi,
    StableHlo.TRef.nullary main_call1.c_1 (constantI S_ 32 0#32),
    StableHlo.TRef.unary main_call1.c_1 main_call1.v5 (broadcastInDim S8192 ![] bcast_S_S8192),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S8192 ![] bcast_S_S8192),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S8192 ![] bcast_S_S8192),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S8192 ![] bcast_S_S8192),
    StableHlo.TRef.binary main_call1.v4 main_call1.v13 main_call1.v14 addi,
    StableHlo.TRef.ternary main_call1.v12 main_call1.v14 main_call1.v4 main_call1.v15 select ]

/-- Both numbers made non-negative and kept as columns. -/
abbrev seg1b {F : FTy → Type} [FloatOps F] : List (HloOp τ sig (Elt F)) :=
  [ StableHlo.nullary main_c_2 (constantI S_ 32 0#32),
    StableHlo.unary main_c_2 main_v13 (broadcastInDim S8192 ![] bcast_S_S8192 : (⟨S_, .i32⟩ : BufTy).Contents (Elt F) → (⟨S8192, .i32⟩ : BufTy).Contents (Elt F)),
    StableHlo.binary main_v9 main_v13 main_v14 (cmpi .slt : (⟨S8192, .i32⟩ : BufTy).Contents (Elt F) → (⟨S8192, .i32⟩ : BufTy).Contents (Elt F) → (⟨S8192, .i1⟩ : BufTy).Contents (Elt F)),
    StableHlo.nullary main_c_3 (constantI S_ 32 8192#32),
    StableHlo.unary main_c_3 main_v15 (broadcastInDim S8192 ![] bcast_S_S8192 : (⟨S_, .i32⟩ : BufTy).Contents (Elt F) → (⟨S8192, .i32⟩ : BufTy).Contents (Elt F)),
    StableHlo.binary main_v9 main_v15 main_v16 (addi : (⟨S8192, .i32⟩ : BufTy).Contents (Elt F) → (⟨S8192, .i32⟩ : BufTy).Contents (Elt F) → (⟨S8192, .i32⟩ : BufTy).Contents (Elt F)),
    StableHlo.ternary main_v14 main_v16 main_v9 main_v17 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_4 (constantI S_ 32 0#32),
    StableHlo.unary main_c_4 main_v18 (broadcastInDim S8192 ![] bcast_S_S8192 : (⟨S_, .i32⟩ : BufTy).Contents (Elt F) → (⟨S8192, .i32⟩ : BufTy).Contents (Elt F)),
    StableHlo.binary main_v12 main_v18 main_v19 (cmpi .slt : (⟨S8192, .i32⟩ : BufTy).Contents (Elt F) → (⟨S8192, .i32⟩ : BufTy).Contents (Elt F) → (⟨S8192, .i1⟩ : BufTy).Contents (Elt F)),
    StableHlo.nullary main_c_5 (constantI S_ 32 8192#32),
    StableHlo.unary main_c_5 main_v20 (broadcastInDim S8192 ![] bcast_S_S8192 : (⟨S_, .i32⟩ : BufTy).Contents (Elt F) → (⟨S8192, .i32⟩ : BufTy).Contents (Elt F)),
    StableHlo.binary main_v12 main_v20 main_v21 (addi : (⟨S8192, .i32⟩ : BufTy).Contents (Elt F) → (⟨S8192, .i32⟩ : BufTy).Contents (Elt F) → (⟨S8192, .i32⟩ : BufTy).Contents (Elt F)),
    StableHlo.ternary main_v19 main_v21 main_v12 main_v22 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v17 main_v23 (broadcastInDim S8192x1 ![0] bcast_S8192_S8192x1_0 : (⟨S8192, .i32⟩ : BufTy).Contents (Elt F) → (⟨S8192x1, .i32⟩ : BufTy).Contents (Elt F)),
    StableHlo.unary main_v22 main_v24 (broadcastInDim S8192x1 ![0] bcast_S8192_S8192x1_0 : (⟨S8192, .i32⟩ : BufTy).Contents (Elt F) → (⟨S8192x1, .i32⟩ : BufTy).Contents (Elt F)) ]

/-- The partner's index pairs, the partner gather, the row sums and the diagonal's numbers. -/
abbrev seg2 {F : FTy → Type} [FloatOps F] : List (HloOp τ sig (Elt F)) :=
  [ StableHlo.binary main_v23 main_v24 main_v25 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v8 main_v25 main_v26 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_cst_6 (constant S_ .f32 0x00000000#32),
    StableHlo.binary main_v8 main_cst_6 main_v27 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_c_7 (constantI S_ 32 0#32),
    StableHlo.unary main_c_7 main_v28 (broadcastInDim S8192 ![] bcast_S_S8192 : (⟨S_, .i32⟩ : BufTy).Contents (Elt F) → (⟨S8192, .i32⟩ : BufTy).Contents (Elt F)),
    StableHlo.binary main_v9 main_v28 main_v29 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v30 (broadcastInDim S8192 ![] bcast_S_S8192 : (⟨S_, .i32⟩ : BufTy).Contents (Elt F) → (⟨S8192, .i32⟩ : BufTy).Contents (Elt F)),
    StableHlo.binary main_v9 main_v30 main_v31 (addi : (⟨S8192, .i32⟩ : BufTy).Contents (Elt F) → (⟨S8192, .i32⟩ : BufTy).Contents (Elt F) → (⟨S8192, .i32⟩ : BufTy).Contents (Elt F)),
    StableHlo.ternary main_v29 main_v31 main_v9 main_v32 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_9 (constantI S_ 32 0#32),
    StableHlo.unary main_c_9 main_v33 (broadcastInDim S8192 ![] bcast_S_S8192 : (⟨S_, .i32⟩ : BufTy).Contents (Elt F) → (⟨S8192, .i32⟩ : BufTy).Contents (Elt F)),
    StableHlo.binary main_v9 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v35 (broadcastInDim S8192 ![] bcast_S_S8192 : (⟨S_, .i32⟩ : BufTy).Contents (Elt F) → (⟨S8192, .i32⟩ : BufTy).Contents (Elt F)),
    StableHlo.binary main_v9 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_v9 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v32 main_v38 (broadcastInDim S8192x1 ![0] bcast_S8192_S8192x1_0 : (⟨S8192, .i32⟩ : BufTy).Contents (Elt F) → (⟨S8192x1, .i32⟩ : BufTy).Contents (Elt F)),
    StableHlo.unary main_v37 main_v39 (broadcastInDim S8192x1 ![0] bcast_S8192_S8192x1_0 : (⟨S8192, .i32⟩ : BufTy).Contents (Elt F) → (⟨S8192x1, .i32⟩ : BufTy).Contents (Elt F)) ]

/-- The diagonal's index pairs and gather, the difference, the terms and their sum. -/
abbrev seg3 {F : FTy → Type} [FloatOps F] : List (HloOp τ sig (Elt F)) :=
  [ StableHlo.binary main_v38 main_v39 main_v40 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v8 main_v40 main_v41 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.binary main_v27 main_v41 main_v42 (subf : (⟨S8192, .f32⟩ : BufTy).Contents (Elt F) → (⟨S8192, .f32⟩ : BufTy).Contents (Elt F) → (⟨S8192, .f32⟩ : BufTy).Contents (Elt F)),
    StableHlo.unary main_v42 main_v43 (Host.sqrt : (⟨S8192, .f32⟩ : BufTy).Contents (Elt F) → (⟨S8192, .f32⟩ : BufTy).Contents (Elt F)),
    StableHlo.binary main_v26 main_v43 main_v44 (Host.divf : (⟨S8192, .f32⟩ : BufTy).Contents (Elt F) → (⟨S8192, .f32⟩ : BufTy).Contents (Elt F) → (⟨S8192, .f32⟩ : BufTy).Contents (Elt F)),
    StableHlo.unary main_v44 main_v45 (Host.log : (⟨S8192, .f32⟩ : BufTy).Contents (Elt F) → (⟨S8192, .f32⟩ : BufTy).Contents (Elt F)),
    StableHlo.unary main_v45 main_v46 (Host.negf : (⟨S8192, .f32⟩ : BufTy).Contents (Elt F) → (⟨S8192, .f32⟩ : BufTy).Contents (Elt F)),
    StableHlo.nullary main_cst_11 (constant S_ .f32 0x00000000#32),
    StableHlo.binary main_v46 main_cst_11 main_v47 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ]

theorem opsAll_split {F : FTy → Type} [FloatOps F] : (opsAll : List (HloOp τ sig (Elt F))) = seg1a ++ (seg1b ++ (seg2 ++ seg3)) := rfl

/-- Rows divided by their norms, the norms clamped from below. -/
def normalize (a : (⟨2, ![8192, 128]⟩ : Shape).Idx → EReal) : LossAlgebra.Z :=
  Host.divf (F := Ideal) (φ := .f32) a (broadcastInDim S8192x128 ![0, 1] bcast_S8192x1_S8192x128_0_1
    (maximumf (F := Ideal) (φ := .f32) (Host.sqrt (F := Ideal) (φ := .f32) (broadcastInDim S8192x1 ![0] bcast_S8192_S8192x1_0
        (Host.reduceAdd (F := Ideal) (φ := .f32) (mulf (F := Ideal) (φ := .f32) a a) (constant (F := Ideal) S_ .f32 0x00000000#32) reducesTo_S8192x128_S8192_d1 h_S_)))
      (broadcastInDim S8192x1 ![] bcast_S_S8192x1 (constant (F := Ideal) S_ .f32 0x358637BD#32))))

/-! Integer arrays read at an index, operation by operation. -/
section Pointwise
variable {s : Shape} {w : Nat}
theorem cmpi_apply (p : CmpIPredicate) (x y : IVec s w) (i : s.Idx) : cmpi p x y i = IntOp.cmpi p (x i) (y i) := rfl
theorem addi_apply (x y : IVec s w) (i : s.Idx) : addi x y i = IntOp.addi (x i) (y i) := rfl
theorem andi_apply (x y : IVec s w) (i : s.Idx) : andi x y i = IntOp.andi (x i) (y i) := rfl
theorem remsi_apply (x y : IVec s w) (i : s.Idx) : Host.remsi x y i = IntOp.remsi .host (x i) (y i) := rfl
theorem constantI_apply (b : BitVec w) (i : s.Idx) : constantI s w b i = b := rfl
theorem iota_apply (d : Fin s.rank) (i : s.Idx) : iotaInDim s w d i = BitVec.ofNat w (i d).val := rfl
end Pointwise

/-- A vector kept as a column, read at (r, 0). -/
theorem col_bcast_apply {α : Type} {n : Nat} (hn : n ≠ 1) (x : (⟨1, ![n]⟩ : Shape).Idx → α)
    (h : (⟨1, ![n]⟩ : Shape).BroadcastsInDim ⟨2, ![n, 1]⟩ ![0]) (r : Fin n) :
    broadcastInDim ⟨2, ![n, 1]⟩ ![0] h x (ix2 r (0 : Fin 1)) = x (ix1 r) :=
  broadcastInDim_apply ![0] h x (ix2 r (0 : Fin 1)) (ix1 r) fun a => by
    match a with
    | ⟨0, _⟩ => show r.val = if n = 1 then 0 else r.val; rw [if_neg hn]

/-- The exponentiated similarity array, entry by entry. -/
theorem seg1a_v8 (V : Valuation τ sig (Elt Ideal)) (a : (⟨2, ![8192, 128]⟩ : Shape).Idx → EReal) (ha : V (Proc.devRef .tc main_arg0) = a)
    (i j : Fin 8192) : StableHlo.after seg1a V (Proc.devRef .tc main_v8) (ix2 i j) = expSim (normalize a) i j := by
  unfold seg1a
  after_results_simp
  rw [ha]
  show Ideal.exp (Ideal.div _ _) = _
  unfold expSim sim
  refine congrArg (fun b : EReal => Ideal.exp (Ideal.div b (Ideal.ofBits .f32 0x3F000000#32))) ?_
  exact LibHostRead.dotGeneralNT_apply none (normalize a) (normalize a) i j

/-- The row numbers. -/
theorem seg1a_v9 (V : Valuation τ sig (Elt Ideal)) : StableHlo.after seg1a V (Proc.devRef .tc main_v9) = iotaInDim S8192 32 0 := by
  unfold seg1a
  after_results_simp

set_option maxHeartbeats 2000000 in
/-- Each row's partner's number, (r + 4096) mod 8192. -/
theorem seg1a_v12 (V : Valuation τ sig (Elt Ideal)) (r : Fin 8192) :
    (StableHlo.after seg1a V (Proc.devRef .tc main_v12) : (⟨1, ![8192]⟩ : Shape).Idx → BitVec 32) (ix1 r) = BitVec.ofNat 32 ((r.val + 4096) % 8192) := by
  unfold seg1a
  after_results_simp
  simp only [TRef.toBuf, TRef.ofBuf, cast_eq]
  simp only [select_apply, cmpi_apply, addi_apply, andi_apply, remsi_apply, constantI_apply, iota_apply, id_eq]
  exact IndexWords.remPart_ok r.val r.isLt

theorem seg1b_v8 (W : Valuation τ sig (Elt Ideal)) : StableHlo.after seg1b W (Proc.devRef .tc main_v8) = W (Proc.devRef .tc main_v8) := by
  unfold seg1b
  after_results_simp

theorem seg1b_v9 (W : Valuation τ sig (Elt Ideal)) : StableHlo.after seg1b W (Proc.devRef .tc main_v9) = W (Proc.devRef .tc main_v9) := by
  unfold seg1b
  after_results_simp

/-- Each row's own number, as the first component of its partner's index pair. -/
theorem seg1b_v23 (W : Valuation τ sig (Elt Ideal)) (hio : W (Proc.devRef .tc main_v9) = iotaInDim S8192 32 0) (r : Fin 8192) :
    ((StableHlo.after seg1b W (Proc.devRef .tc main_v23) : (⟨2, ![8192, 1]⟩ : Shape).Idx → BitVec 32) (ix2 r (0 : Fin 1))).toInt.toNat = r.val := by
  unfold seg1b
  after_results_simp
  rw [hio]
  exact IndexWords.rowIdx_ok r.val r.isLt

/-- The partner's number as the second component. -/
theorem seg1b_v24 (W : Valuation τ sig (Elt Ideal)) (w12 : (⟨1, ![8192]⟩ : Shape).Idx → BitVec 32) (h12 : W (Proc.devRef .tc main_v12) = w12)
    (r : Fin 8192) (k : Nat) (hk : k < 8192) (hw : w12 (ix1 r) = BitVec.ofNat 32 k) :
    ((StableHlo.after seg1b W (Proc.devRef .tc main_v24) : (⟨2, ![8192, 1]⟩ : Shape).Idx → BitVec 32) (ix2 r (0 : Fin 1))).toInt.toNat = k := by
  unfold seg1b
  after_results_simp
  rw [h12, col_bcast_apply (by decide)]
  show (IndexWords.rowIdxS (w12 (ix1 r))).toInt.toNat = k
  rw [hw]
  exact IndexWords.rowIdx_ok k hk

/-- A pair of columns laid side by side, read at (r, 0) and at (r, 1). -/
theorem pair_fst (c0 c1 : (⟨2, ![8192, 1]⟩ : Shape).Idx → BitVec 32)
    (h : Shape.Concatenates [(⟨2, ![8192, 1]⟩ : Shape), ⟨2, ![8192, 1]⟩] ⟨2, ![8192, 2]⟩ 1) (r : Fin 8192) :
    concatenate ⟨2, ![8192, 2]⟩ 1 [⟨⟨2, ![8192, 1]⟩, c0⟩, ⟨⟨2, ![8192, 1]⟩, c1⟩] h (ix2 r (0 : Fin 2)) = c0 (ix2 r (0 : Fin 1)) :=
  concatenate_pair_apply_left 1 c0 c1 h (ix2 r (0 : Fin 2)) rfl (ix2 r (0 : Fin 1)) fun b => by
    match b with
    | ⟨0, _⟩ => rfl
    | ⟨1, _⟩ => rfl

theorem pair_snd (c0 c1 : (⟨2, ![8192, 1]⟩ : Shape).Idx → BitVec 32)
    (h : Shape.Concatenates [(⟨2, ![8192, 1]⟩ : Shape), ⟨2, ![8192, 1]⟩] ⟨2, ![8192, 2]⟩ 1) (r : Fin 8192) :
    concatenate ⟨2, ![8192, 2]⟩ 1 [⟨⟨2, ![8192, 1]⟩, c0⟩, ⟨⟨2, ![8192, 1]⟩, c1⟩] h (ix2 r (1 : Fin 2)) = c1 (ix2 r (0 : Fin 1)) :=
  concatenate_pair_apply_right 1 c0 c1 h (ix2 r (1 : Fin 2)) rfl rfl (ix2 r (0 : Fin 1)) (fun b hb => by
    match b with
    | ⟨0, _⟩ => rfl
    | ⟨1, _⟩ => exact absurd rfl hb) rfl

/-- A gather of the array e at the pairs (c0[r], c1[r]), read at r when both numbers are in range. -/
theorem gather_pairs (e : (⟨2, ![8192, 8192]⟩ : Shape).Idx → EReal) (c0 c1 : (⟨2, ![8192, 1]⟩ : Shape).Idx → BitVec 32)
    (h : Shape.Concatenates [(⟨2, ![8192, 1]⟩ : Shape), ⟨2, ![8192, 1]⟩] ⟨2, ![8192, 2]⟩ 1) (r : Fin 8192) (i j : Fin 8192)
    (h0 : (c0 (ix2 r (0 : Fin 1))).toInt.toNat = i.val) (h1 : (c1 (ix2 r (0 : Fin 1))).toInt.toNat = j.val) :
    Host.gather gather_S8192x8192_S8192x2_S8192_n_01_n_n_01_1_11 e
        (concatenate ⟨2, ![8192, 2]⟩ 1 [⟨⟨2, ![8192, 1]⟩, c0⟩, ⟨⟨2, ![8192, 1]⟩, c1⟩] h) (ix1 r) = e (ix2 i j) := by
  refine (LibPointGather.gather_pair_apply (N := 8192) (M := 8192) (R := 8192) (by decide) (by decide) _ e _ r).trans ?_
  refine congrArg e ?_
  have hi := i.isLt
  have hj := j.isLt
  refine congrArg₂ ix2 (Fin.ext ?_) (Fin.ext ?_)
  · show min (_ : BitVec 32).toInt.toNat (8192 - 1) = i.val
    rw [pair_fst c0 c1 h r, h0]; omega
  · show min (_ : BitVec 32).toInt.toNat (8192 - 1) = j.val
    rw [pair_snd c0 c1 h r, h1]; omega

/-- The second stretch: the partner entries, -/
theorem seg2_v26 (W : Valuation τ sig (Elt Ideal)) (e : (⟨2, ![8192, 8192]⟩ : Shape).Idx → EReal) (he : W (Proc.devRef .tc main_v8) = e)
    (c0 c1 : (⟨2, ![8192, 1]⟩ : Shape).Idx → BitVec 32) (h0 : W (Proc.devRef .tc main_v23) = c0) (h1 : W (Proc.devRef .tc main_v24) = c1)
    (r i j : Fin 8192) (hi : (c0 (ix2 r (0 : Fin 1))).toInt.toNat = i.val) (hj : (c1 (ix2 r (0 : Fin 1))).toInt.toNat = j.val) :
    StableHlo.after seg2 W (Proc.devRef .tc main_v26) (ix1 r) = e (ix2 i j) := by
  unfold seg2
  after_results_simp
  rw [he, h0, h1]
  exact gather_pairs e c0 c1 _ r i j hi hj

/-- the row sums, -/
theorem seg2_v27 (W : Valuation τ sig (Elt Ideal)) (e : (⟨2, ![8192, 8192]⟩ : Shape).Idx → EReal) (he : W (Proc.devRef .tc main_v8) = e) (r : Fin 8192) :
    StableHlo.after seg2 W (Proc.devRef .tc main_v27) (ix1 r) = 0 + ∑ j : Fin 8192, e (ix2 r j) := by
  unfold seg2
  after_results_simp
  rw [he]
  refine (LibHostRead.hostRowSum_apply e _ _ _ (by decide) r).trans ?_
  exact congrArg₂ (· + ·) Ideal.ofBits_zero_f32 rfl

/-- the array itself, untouched, -/
theorem seg2_v8 (W : Valuation τ sig (Elt Ideal)) : StableHlo.after seg2 W (Proc.devRef .tc main_v8) = W (Proc.devRef .tc main_v8) := by
  unfold seg2
  after_results_simp

/-- and both components of the diagonal's index pairs: the row's own number. -/
theorem seg2_v38 (W : Valuation τ sig (Elt Ideal)) (hio : W (Proc.devRef .tc main_v9) = iotaInDim S8192 32 0) (r : Fin 8192) :
    ((StableHlo.after seg2 W (Proc.devRef .tc main_v38) : (⟨2, ![8192, 1]⟩ : Shape).Idx → BitVec 32) (ix2 r (0 : Fin 1))).toInt.toNat = r.val := by
  unfold seg2
  after_results_simp
  rw [hio]
  exact IndexWords.rowIdx_ok r.val r.isLt

theorem seg2_v39 (W : Valuation τ sig (Elt Ideal)) (hio : W (Proc.devRef .tc main_v9) = iotaInDim S8192 32 0) (r : Fin 8192) :
    ((StableHlo.after seg2 W (Proc.devRef .tc main_v39) : (⟨2, ![8192, 1]⟩ : Shape).Idx → BitVec 32) (ix2 r (0 : Fin 1))).toInt.toNat = r.val := by
  unfold seg2
  after_results_simp
  rw [hio]
  exact IndexWords.rowIdx_ok r.val r.isLt

theorem seg2_v9 (W : Valuation τ sig (Elt Ideal)) : StableHlo.after seg2 W (Proc.devRef .tc main_v9) = W (Proc.devRef .tc main_v9) := by
  unfold seg2
  after_results_simp

/-- The third stretch: the loss from the partner entries, the row sums and the diagonal. -/
theorem seg3_v47 (W : Valuation τ sig (Elt Ideal)) (e : (⟨2, ![8192, 8192]⟩ : Shape).Idx → EReal) (he : W (Proc.devRef .tc main_v8) = e)
    (P : (⟨1, ![8192]⟩ : Shape).Idx → EReal) (hP : W (Proc.devRef .tc main_v26) = P)
    (Sm : (⟨1, ![8192]⟩ : Shape).Idx → EReal) (hS : W (Proc.devRef .tc main_v27) = Sm)
    (c0 c1 : (⟨2, ![8192, 1]⟩ : Shape).Idx → BitVec 32) (h0 : W (Proc.devRef .tc main_v38) = c0) (h1 : W (Proc.devRef .tc main_v39) = c1)
    (hd0 : ∀ r : Fin 8192, (c0 (ix2 r (0 : Fin 1))).toInt.toNat = r.val) (hd1 : ∀ r : Fin 8192, (c1 (ix2 r (0 : Fin 1))).toInt.toNat = r.val) :
    StableHlo.after seg3 W (Proc.devRef .tc main_v47)
      = fun _ => 0 + ∑ i : Fin 8192, -(Ideal.log (Ideal.div (P (ix1 i)) (Ideal.sqrt (Sm (ix1 i) - e (ix2 i i))))) := by
  unfold seg3
  after_results_simp
  rw [he, hP, hS, h0, h1]
  funext j
  refine (LibHostRead.hostTotalSum_apply _ _ _ _ j).trans ?_
  refine congrArg₂ (· + ·) Ideal.ofBits_zero_f32 (Finset.sum_congr rfl fun i _ => ?_)
  show -(Ideal.log (Ideal.div (P (ix1 i)) (Ideal.sqrt (Sm (ix1 i) - _)))) = _
  rw [gather_pairs e c0 c1 _ i i i (hd0 i) (hd1 i)]

/-- THE REFERENCE PROGRAM'S RESULT: the loss of the normalized array. -/
theorem reference_loss (V : Valuation τ sig (Elt Ideal)) (a : (⟨2, ![8192, 128]⟩ : Shape).Idx → EReal) (ha : V (Proc.devRef .tc main_arg0) = a) :
    StableHlo.after opsAll V (Proc.devRef .tc main_v47) = fun _ => loss (normalize a) := by
  rw [opsAll_split, StableHlo.after_append, StableHlo.after_append, StableHlo.after_append]
  have hio1 : StableHlo.after seg1b (StableHlo.after seg1a V) (Proc.devRef .tc main_v9) = iotaInDim S8192 32 0 :=
    (seg1b_v9 _).trans (seg1a_v9 V)
  have he1 : ∀ i j : Fin 8192, StableHlo.after seg1b (StableHlo.after seg1a V) (Proc.devRef .tc main_v8) (ix2 i j) = expSim (normalize a) i j :=
    fun i j => by rw [seg1b_v8]; exact seg1a_v8 V a ha i j
  rw [seg3_v47 (StableHlo.after seg2 (StableHlo.after seg1b (StableHlo.after seg1a V))) _ (seg2_v8 _) _ rfl _ rfl _ _ rfl rfl
    (fun r => seg2_v38 _ hio1 r) (fun r => seg2_v39 _ hio1 r)]
  funext _
  unfold loss
  refine congrArg (0 + ·) (Finset.sum_congr rfl fun i _ => ?_)
  rw [seg2_v26 (StableHlo.after seg1b (StableHlo.after seg1a V)) _ rfl _ _ rfl rfl i i (partner i)
      (seg1b_v23 _ (seg1a_v9 V) i)
      (seg1b_v24 _ _ rfl i ((i.val + 4096) % 8192) (Nat.mod_lt _ (by decide)) (seg1a_v12 V i)),
    seg2_v27 (StableHlo.after seg1b (StableHlo.after seg1a V)) _ rfl i]
  simp only [he1]

end Cert.ReferenceIdeal.RefRun

end
-- ==== Proof.ReferenceFinal.lean ====
/-
  The reference program's run with its result named: every weakly fair execution terminates with the loss of the
  normalized argument array in the result buffer and the argument array unchanged.
-/
import proofs.«110751_j72619307041593_1_alg».proof.Proof.ReferenceRead

set_option maxRecDepth 16384

noncomputable section

namespace Cert.ReferenceIdeal.RefRun

open Cert.ReferenceIdeal
open Idealize.ShloMosaic Idealize.ShloMosaic.TcCoe Idealize.ShloMosaic.StableHlo
open Idealize.SL.Sem
open LossAlgebra

variable [hF : Cert.ReferenceIdeal.Facts]

/-- No operation writes the argument array. -/
theorem arg0_kept (V : Valuation τ sig (Elt Ideal)) : StableHlo.after opsAll V (Proc.devRef .tc main_arg0) = V (Proc.devRef .tc main_arg0) := by
  unfold opsAll
  after_results_simp

/-- THE RUN, with the result named. -/
theorem value_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47) = (fun _ => loss (normalize (m ((c.tc : Thread nD τ).loc main_arg0))))
      ∧ r.2.mem ((c.tc : Thread nD τ).loc main_arg0) = m ((c.tc : Thread nD τ).loc main_arg0)) :=
  (θ_run defs _ _).mono (fun _ h c =>
    ⟨(h c main_v47).trans (reference_loss (StableHlo.launchContents m c) _ rfl),
     (h c main_arg0).trans (arg0_kept (StableHlo.launchContents m c))⟩) (run m ρ)

end Cert.ReferenceIdeal.RefRun

end
-- ==== Proof.lean ====
/-
  The certificate of the contrastive-loss kernel against its reference.

  Both programs normalize the rows of the argument array z (divide each row by its norm, clamped from below) and
  compute  ∑ i, −log ( e(i, partner i) / √( ∑ j e(i, j) − e(i, i) ) )  with  e(i, j) = exp ( ⟨z i, z j⟩ / ½ ).
  The reference forms the whole 8192 × 8192 array e on the host and gathers the partner and diagonal entries out of it.
  The kernel program never forms e: a pipelined kernel walks the 8 × 8 grid of 1024 × 1024 tiles, accumulating in a
  scratch column the row sums of exp (⟨z i, z j⟩ · 2) over the eight column tiles of each row tile and writing the
  column out after the last; host lines then compute the diagonal entry from each row's sum of squares and the partner
  entry from the pairing of rows i and i + 4096. The two are one function of z on the extended reals: sums commute and
  associate, dividing by ½ is doubling, and ⟨z i, z j⟩ is symmetric — no finiteness is used.

  The frames: the kernel reads the ONE normalized array through two windows, so its buffer is dealt to them in halves at
  the region's entry and collected at its exit; the accumulator is carried in the region invariant from point to point.
-/
import proofs.«110751_j72619307041593_1_alg».proof.Defs
import proofs.«110751_j72619307041593_1_alg».proof.Proof.Gen.Kernel
import proofs.«110751_j72619307041593_1_alg».proof.Proof.Gen.KernelIdeal
import proofs.«110751_j72619307041593_1_alg».proof.Proof.Gen.ReferenceIdeal
import proofs.«110751_j72619307041593_1_alg».proof.Proof.Gen.Pre_finite_inputs
import proofs.«110751_j72619307041593_1_alg».proof.Proof.KernelRun
import proofs.«110751_j72619307041593_1_alg».proof.Proof.KernelIdealFinal
import proofs.«110751_j72619307041593_1_alg».proof.Proof.ReferenceFinal
import Idealize.ShloMosaic.Adequacy
import Idealize.ShloMosaic.Init

noncomputable section

namespace Cert.Proof

open Idealize.ShloMosaic Idealize.SL.Sem

/-- The word-level kernel program runs and leaves its argument unchanged. -/
theorem frame_p : Cert.frame_Kernel := fun m ρ _ => Cert.Kernel.Hand.frame m ρ

/-- So does the idealized kernel program. -/
theorem frame_pi : Cert.frame_KernelIdeal := fun m ρ _ => Cert.KernelIdeal.Hand.frame m ρ

/-- So does the reference. -/
theorem frame_ri : Cert.frame_ReferenceIdeal := fun m ρ _ =>
  (θ_run Cert.ReferenceIdeal.defs _ _).mono (fun _ h c => (h c).2) (Cert.ReferenceIdeal.RefRun.value_run m ρ)

/-- The two normalizations are one function of the argument array. -/
theorem normalize_eq (a : (⟨2, ![8192, 128]⟩ : Shape).Idx → EReal) :
    Cert.ReferenceIdeal.RefRun.normalize a = Cert.KernelIdeal.Hand.normalize a := rfl

/-- Both idealized programs end with the loss of the normalized argument in their result. -/
theorem algebraic : Cert.algebraic_KernelIdeal_ReferenceIdeal := by
  intro m ρ m' ρ' _ hagree
  refine ⟨fun c => (fun _ => LossAlgebra.loss (Cert.KernelIdeal.Hand.normalize (m ((c.tc : Thread Cert.KernelIdeal.nD Cert.KernelIdeal.τ).loc Cert.KernelIdeal.main_arg0)))),
    Cert.KernelIdeal.Hand.value_run m ρ, ?_⟩
  refine (θ_run Cert.ReferenceIdeal.defs _ _).mono (fun _ h c => ⟨(h c).1.trans ?_, (h c).2⟩)
    (Cert.ReferenceIdeal.RefRun.value_run m' ρ')
  rw [hagree c, normalize_eq]
  rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
